-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S768 : Shape := ⟨1, ![768]⟩
abbrev S768x768 : Shape := ⟨2, ![768, 768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_arg4 : FVec F S768 .f32) (main_arg5 : FVec F S768x768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S8x2048x768 .f32) (main_arg1 : FVec F S768 .f32) (main_arg2 : FVec F S768 .f32) (main_arg3 : FVec F S768x768 .f32) (main_arg4 : FVec F S768 .f32) (main_arg5 : FVec F S768x768 .f32) (main_arg6 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S8x2048x768 : Shape := ⟨3, ![8, 2048, 768]⟩
abbrev S768 : Shape := ⟨1, ![768]⟩
abbrev S768x768 : Shape := ⟨2, ![768, 768]⟩
abbrev S1x768 : Shape := ⟨2, ![1, 768]⟩
abbrev S8x2048x2048 : Shape := ⟨3, ![8, 2048, 2048]⟩
abbrev S1x2048x768 : Shape := ⟨3, ![1, 2048, 768]⟩
abbrev S1x1024x2048 : Shape := ⟨3, ![1, 1024, 2048]⟩
abbrev S2048x768 : Shape := ⟨2, ![2048, 768]⟩
abbrev S2048 : Shape := ⟨1, ![2048]⟩
abbrev S2048x1 : Shape := ⟨2, ![2048, 1]⟩
abbrev S1x1024x768 : Shape := ⟨3, ![1, 1024, 768]⟩
abbrev S1024x768 : Shape := ⟨2, ![1024, 768]⟩
abbrev S1024 : Shape := ⟨1, ![1024]⟩
abbrev S1024x1 : Shape := ⟨2, ![1024, 1]⟩
abbrev S1024x2048 : Shape := ⟨2, ![1024, 2048]⟩

abbrev nBuf : Space → Nat
  | .hbm => 14
  | .vmem => 11
  | .smem => 0
  | _ => 0

abbrev bufTy : (tb : Table) → Fin (tcTables nBuf tb) → BufTy
  | .hbm, ⟨0, _⟩ => ⟨S8x2048x768, .f32⟩
  | .hbm, ⟨1, _⟩ => ⟨S768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S1x768, .f32⟩
  | .hbm, ⟨8, _⟩ => ⟨S1x768, .f32⟩
  | .hbm, ⟨9, _⟩ => ⟨S1x768, .f32⟩
  | .hbm, ⟨10, _⟩ => ⟨S1x768, .f32⟩
  | .hbm, ⟨11, _⟩ => ⟨S768x768, .bf16⟩
  | .hbm, ⟨12, _⟩ => ⟨S768x768, .bf16⟩
  | .hbm, ⟨13, _⟩ => ⟨S8x2048x2048, .f32⟩
  | .local _ .vmem, ⟨0, _⟩ => ⟨S1x2048x768, .f32⟩
  | .local _ .vmem, ⟨1, _⟩ => ⟨S1x2048x768, .f32⟩
  | .local _ .vmem, ⟨2, _⟩ => ⟨S1x768, .f32⟩
  | .local _ .vmem, ⟨3, _⟩ => ⟨S1x768, .f32⟩
  | .local _ .vmem, ⟨4, _⟩ => ⟨S768x768, .bf16⟩
  | .local _ .vmem, ⟨5, _⟩ => ⟨S1x768, .f32⟩
  | .local _ .vmem, ⟨6, _⟩ => ⟨S768x768, .bf16⟩
  | .local _ .vmem, ⟨7, _⟩ => ⟨S1x768, .f32⟩
  | .local _ .vmem, ⟨8, _⟩ => ⟨S1x1024x2048, .f32⟩
  | .local _ .vmem, ⟨9, _⟩ => ⟨S1x1024x2048, .f32⟩
  | .local _ .vmem, ⟨10, _⟩ => ⟨S2048x768, .bf16⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v7 : BitVec 32 := Scalar.muli arg1 c1024_i32
  v7
def k0_off1 (i : grid0.Coords) : Fin 3 → Nat :=
  let c0_4 : Index := 0#32
  let arg1 : BitVec 32 := BitVec.ofNat 32 (i 1).val
  let c1024_i32 : BitVec 32 := 1024#32
  let v7 : BitVec 32 := Scalar.muli arg1 c1024_i32
  let v8 : BitVec 32 := v7
  let v9 : Index := Scalar.indexCast v8
  let c0_5 : Index := 0#32
  ![0, v9.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S768_S1x768 : S768.ShapeCasts S1x768
  bitsLt_bf16_f32 : FTy.bits .bf16 < FTy.bits .f32
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  reduces_S2048x768_S2048 : S2048x768.Reduces [1] S2048
  shapeCasts_S2048_S2048x1 : S2048.ShapeCasts S2048x1
  broadcasts_S2048x1_S2048x768 : S2048x1.Broadcasts S2048x768
  broadcasts_S1x768_S2048x768 : S1x768.Broadcasts S2048x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  packedbf16_S2048x768_S2048x768_0_0 : (Rect.unit (s := S2048x768) ![0, 0] S2048x768.size inb_S2048x768_S2048x768_0_0).PackedRows (EltTy.packing .bf16)
  h_S1x1024x768 : 0 < S1x1024x768.numel
  shapeCasts_S1x1024x768_S1024x768 : S1x1024x768.ShapeCasts S1024x768
  reduces_S1024x768_S1024 : S1024x768.Reduces [1] S1024
  shapeCasts_S1024_S1024x1 : S1024.ShapeCasts S1024x1
  broadcasts_S1024x1_S1024x768 : S1024x1.Broadcasts S1024x768
  broadcasts_S1x768_S1024x768 : S1x768.Broadcasts S1024x768
  reduces_S1024x2048_S1024 : S1024x2048.Reduces [1] S1024
  broadcasts_S1024x1_S1024x2048 : S1024x1.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  dot_S2048x768_S768x768_S2048x768_1_0_0_1_n_n_wf : DotDims.WF S2048x768 S768x768 S2048x768 [1] [0] [0] [1] [] []
  dot_S1024x768_S768x768_S1024x768_1_0_0_1_n_n_wf : DotDims.WF S1024x768 S768x768 S1024x768 [1] [0] [0] [1] [] []
  dot_S1024x768_S2048x768_S1024x2048_1_1_0_0_n_n_wf : DotDims.WF S1024x768 S2048x768 S1024x2048 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1x1024x768.size a ≤ S1x2048x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S8x2048x768.size a
  hwx0_0 : ∀ i : grid0.Coords, EltTy.bits .f32 = 32 ∨ (Rect.block (s := S8x2048x768) S1x2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x2048.size a ≤ S8x2048x2048.size a
  hwx0_7 : ∀ i : grid0.Coords, EltTy.bits .f32 = 32 ∨ (Rect.block (s := S8x2048x2048) S1x1024x2048.size (cc0_transform_7 i) (hinb0_7 i)).WholeWords (EltTy.packing .f32)

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S2048x768_S1024x2048_1_1_0_0_n_n : DotDims S1024x768 S2048x768 S1024x2048 where
  lhsContracting := [1]
  rhsContracting := [1]
  lhsNonContracting := [0]
  rhsNonContracting := [0]
  lhsBatch := []
  rhsBatch := []
  wf := dot_S1024x768_S2048x768_S1024x2048_1_1_0_0_n_n_wf

abbrev win0_0 : Pipeline.Window sig grid0 :=
  Pipeline.Window.ofSpec (Memref.whole main_arg0) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S768 : Shape := ⟨1, ![768]⟩
abbrev S768x768 : Shape := ⟨2, ![768, 768]⟩
abbrev S_ : Shape := ⟨0, ![]⟩
abbrev S8x2048 : Shape := ⟨2, ![8, 2048]⟩
abbrev S8x2048x1 : Shape := ⟨3, ![8, 2048, 1]⟩
abbrev S1x1x768 : Shape := ⟨3, ![1, 1, 768]⟩
abbrev S8x2048x2048 : Shape := ⟨3, ![8, 2048, 2048]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x768, .f32⟩
  | .hbm, ⟨14, _⟩ => ⟨S8x2048x768, .f32⟩
  | .hbm, ⟨15, _⟩ => ⟨S8x2048x768, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x768, .f32⟩
  | .hbm, ⟨23, _⟩ => ⟨S8x2048x768, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x768, .f32⟩
  | .hbm, ⟨29, _⟩ => ⟨S8x2048x768, .f32⟩
  | .hbm, ⟨30, _⟩ => ⟨S1x1x768, .f32⟩
  | .hbm, ⟨31, _⟩ => ⟨S8x2048x768, .f32⟩
  | .hbm, ⟨32, _⟩ => ⟨S8x2048x768, .f32⟩
  | .hbm, ⟨33, _⟩ => ⟨S1x1x768, .f32⟩
  | .hbm, ⟨34, _⟩ => ⟨S8x2048x768, .f32⟩
  | .hbm, ⟨35, _⟩ => ⟨S8x2048x768, .f32⟩
  | .hbm, ⟨36, _⟩ => ⟨S8x2048x768, .f32⟩
  | .hbm, ⟨37, _⟩ => ⟨S1x1x768, .f32⟩
  | .hbm, ⟨38, _⟩ => ⟨S8x2048x768, .f32⟩
  | .hbm, ⟨39, _⟩ => ⟨S8x2048x768, .f32⟩
  | .hbm, ⟨40, _⟩ => ⟨S8x2048x768, .f32⟩
  | .hbm, ⟨41, _⟩ => ⟨S1x1x768, .f32⟩
  | .hbm, ⟨42, _⟩ => ⟨S8x2048x768, .f32⟩
  | .hbm, ⟨43, _⟩ => ⟨S8x2048x768, .f32⟩
  | .hbm, ⟨44, _⟩ => ⟨S8x2048x2048, .f32⟩
  | .hbm, ⟨45, _⟩ => ⟨S_, .f32⟩
  | .hbm, ⟨46, _⟩ => ⟨S8x2048, .f32⟩
  | .hbm, ⟨47, _⟩ => ⟨S_, .f32⟩
  | .hbm, ⟨48, _⟩ => ⟨S8x2048, .f32⟩
  | .hbm, ⟨49, _⟩ => ⟨S8x2048, .f32⟩
  | .hbm, ⟨50, _⟩ => ⟨S8x2048x1, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S8x2048x2048, .f32⟩
  | .hbm, ⟨58, _⟩ => ⟨S8x2048x2048, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  reducesTo_S8x2048x768_S8x2048_d2 : S8x2048x768.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x768_0_1_2 : S8x2048x1.BroadcastsInDim S8x2048x768 (![0, 1, 2] : Fin 3 → Fin S8x2048x768.rank)
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  dot_S8x2048x768_S768x768_S8x2048x768_2_0_01_1_n_n_wf : DotDims.WF S8x2048x768 S768x768 S8x2048x768 [2] [0] [0, 1] [1] [] []
  dot_S8x2048x768_S8x2048x768_S8x2048x2048_2_2_1_1_0_0_wf : DotDims.WF S8x2048x768 S8x2048x768 S8x2048x2048 [2] [2] [1] [1] [0] [0]

variable [Facts₀]

def dot_S8x2048x768_S768x768_S8x2048x768_2_0_01_1_n_n : DotDims S8x2048x768 S768x768 S8x2048x768 where
  lhsContracting := [2]
  rhsContracting := [0]
  lhsNonContracting := [0, 1]
  rhsNonContracting := [1]
  lhsBatch := []
  rhsBatch := []
  wf := dot_S8x2048x768_S768x768_S8x2048x768_2_0_01_1_n_n_wf
def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf

class Facts : Prop extends Facts₀ where

variable [Facts]
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.LibRowSoftmax.lean ====
/-
  A row softmax, read at an entry.

  The softmax of a row `f` of `b` extended reals is taken the stable way: the row's largest entry `M` (a maximum
  started from -∞) is subtracted from every entry before exponentiating, and each exponential is divided by the sum
  of the row's exponentials:  softmax f q = exp (f q - M) / Σ j, exp (f j - M).

  A kernel spells this on an `[a, b]` block with two lane reductions (a maximum and a sum along the second axis),
  each kept as an `[a, 1]` column and laid back along the row. A host program spells it with two reductions along
  the second axis, each broadcast back to a column and then to the row, and takes one more maximum with -∞ before
  subtracting. Over the extended reals both, read at entry `(p, q)`, are the softmax of row `p` at `q`.
-/
import Idealize.ShloMosaic.Lib.ValueIdx
import Idealize.ShloMosaic.Lib.IdealHost
import Idealize.ShloMosaic.PureOps.Ideal.Laws
import proofs.«160184_j70583492542479_2_alg».proof.Proof.LibColumn

noncomputable section

open scoped BigOperators

namespace Idealize.ShloMosaic.RowSoftmax

open Idealize.ShloMosaic Idealize.ShloMosaic.ValueIdx Idealize.ShloMosaic.Column

/-- The largest entry of a row, started from -∞. -/
def rowMax {b : ℕ} (f : Fin b → EReal) : EReal := (Finset.univ : Finset (Fin b)).fold max ⊥ f

/-- Entry `q` of the softmax of the row `f`. -/
def softmaxRow {b : ℕ} (f : Fin b → EReal) (q : Fin b) : EReal :=
  Ideal.div (Ideal.exp (f q - rowMax f)) (∑ j : Fin b, Ideal.exp (f j - rowMax f))

/-- The f32 pattern of -∞ is the bottom of the extended reals. -/
theorem ofBits_negInf_f32 : Ideal.ofBits .f32 0xFF800000#32 = ⊥ := by simp [Ideal.ofBits, Ideal.ieee]

/-- Dividing by one changes nothing, at the infinities too. -/
theorem div_one (x : EReal) : Ideal.div x 1 = x := by
  unfold Ideal.div
  rw [if_neg one_ne_zero, inv_one, mul_one]

/-- Row `p` of an `[a, b]` array with coordinate `k` put back on the reduced second axis is entry `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-! ## The kernel's two lane reductions -/

/-- A lane maximum from -∞ along the second axis, at row `p`, is the row's largest entry. -/
theorem lane_max_apply {a b : ℕ} (L : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ) (p : Fin a) :
    multiReduction .maximumf [1] ⟨1, ![a]⟩ L 0xFF800000#32 h hφ hacc (ix1 p) = rowMax fun j => L (ix2 p j) := by
  rw [Ideal.multiReduction_maximumf_single]
  show Finset.fold max (Ideal.ofBits .f32 0xFF800000#32) _ _ = _
  rw [ofBits_negInf_f32]
  unfold rowMax
  exact congrArg (fun f => Finset.fold max ⊥ f (Finset.univ : Finset (Fin b)))
    (funext fun k => congrArg L (lift_row h p k))

/-- A lane sum from zero along the second axis, at row `p`, is the sum of the row's entries. -/
theorem lane_sum_apply {a b : ℕ} (E : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ) (p : Fin a) :
    multiReduction .add [1] ⟨1, ![a]⟩ E 0x00000000#32 h hφ hacc (ix1 p) = ∑ j : Fin b, E (ix2 p j) := by
  rw [Ideal.multiReduction_add_single]
  exact Finset.sum_congr rfl fun k _ => congrArg E (lift_row h p k)

section kernel
variable {a b : ℕ} (L : FVec Ideal ⟨2, ![a, b]⟩ .f32)
  (hr : (⟨2, ![a, b]⟩ : Shape).Reduces [1] (⟨1, ![a]⟩ : Shape))
  (hc : (⟨1, ![a]⟩ : Shape).ShapeCasts ⟨2, ![a, 1]⟩)
  (hb : (⟨2, ![a, 1]⟩ : Shape).Broadcasts ⟨2, ![a, b]⟩)
  (hφ : FKind.Formats .f32) (hmax : (0xFF800000#32 : BitVec 32) = FKind.maximumf.neutral .f32 hφ)

/-- The kernel's shifted exponentials: entry `(p, q)` is `exp` of the entry less its row's largest. -/
theorem lane_shifted_exp_apply (p : Fin a) (q : Fin b) :
    exp (subf L (broadcastTo ⟨2, ![a, b]⟩
      (shapeCast ⟨2, ![a, 1]⟩ (multiReduction .maximumf [1] ⟨1, ![a]⟩ L 0xFF800000#32 hr hφ hmax) hc) hb)) (ix2 p q)
      = Ideal.exp (L (ix2 p q) - rowMax fun j => L (ix2 p j)) := by
  show Ideal.exp (L (ix2 p q) - broadcastTo ⟨2, ![a, b]⟩
      (shapeCast ⟨2, ![a, 1]⟩ (multiReduction .maximumf [1] ⟨1, ![a]⟩ L 0xFF800000#32 hr hφ hmax) hc) hb (ix2 p q)) = _
  rw [broadcastTo_a1_ab_apply, shapeCast_a_a1_apply, lane_max_apply]

/-- The kernel's row softmax of an `[a, b]` block, read at `(p, q)`. -/
theorem lane_softmax_apply (hφ' : FKind.Formats .f32)
    (hadd : (0x00000000#32 : BitVec 32) = FKind.add.neutral .f32 hφ') (p : Fin a) (q : Fin b) :
    divf (exp (subf L (broadcastTo ⟨2, ![a, b]⟩
        (shapeCast ⟨2, ![a, 1]⟩ (multiReduction .maximumf [1] ⟨1, ![a]⟩ L 0xFF800000#32 hr hφ hmax) hc) hb)))
      (broadcastTo ⟨2, ![a, b]⟩ (shapeCast ⟨2, ![a, 1]⟩ (multiReduction .add [1] ⟨1, ![a]⟩
        (exp (subf L (broadcastTo ⟨2, ![a, b]⟩
          (shapeCast ⟨2, ![a, 1]⟩ (multiReduction .maximumf [1] ⟨1, ![a]⟩ L 0xFF800000#32 hr hφ hmax) hc) hb)))
        0x00000000#32 hr hφ' hadd) hc) hb) (ix2 p q)
      = softmaxRow (fun j => L (ix2 p j)) q := by
  rw [divf_apply, broadcastTo_a1_ab_apply, shapeCast_a_a1_apply, lane_sum_apply]
  unfold softmaxRow
  simp only [lane_shifted_exp_apply L hr hc hb hφ hmax]

end kernel

/-! ## The host's two reductions -/

/-- The host's maximum from -∞ along the second axis, at row `p`, is the row's largest entry. -/
theorem host_max_apply {a b : ℕ} (L : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf L (constant (F := Ideal) (⟨0, ![]⟩ : Shape) .f32 0xFF800000#32) h' hu (ix1 p)
      = rowMax fun j => L (ix2 p j) := by
  rw [Host.reduce_eq_fold_single FloatOps.maximumf L _ h' h hu]
  show Finset.fold max (Ideal.ofBits .f32 0xFF800000#32) _ _ = _
  rw [ofBits_negInf_f32]
  unfold rowMax
  exact congrArg (fun f => Finset.fold max ⊥ f (Finset.univ : Finset (Fin b)))
    (funext fun k => congrArg L (lift_row h p k))

/-- The host's sum from zero along the second axis, at row `p`, is the sum of the row's entries. -/
theorem host_sum_apply {a b : ℕ} (E : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd E (constant (F := Ideal) (⟨0, ![]⟩ : Shape) .f32 0x00000000#32) h' hu (ix1 p)
      = ∑ j : Fin b, E (ix2 p j) := by
  rw [hostReduceAdd_apply, Ideal.hostReduceAdd_single h' h]
  show Ideal.ofBits .f32 0x00000000#32 + _ = _
  rw [Ideal.ofBits_zero_f32, zero_add]
  exact Finset.sum_congr rfl fun k _ => congrArg E (lift_row h p k)

section host
variable {a b : ℕ} (L : FVec Ideal ⟨2, ![a, b]⟩ .f32)
  (hr' : (⟨2, ![a, b]⟩ : Shape).ReducesTo [1] (⟨1, ![a]⟩ : Shape))
  (hr : (⟨2, ![a, b]⟩ : Shape).Reduces [1] (⟨1, ![a]⟩ : Shape)) (hu : 0 < (⟨0, ![]⟩ : Shape).numel)
  (h0 : (⟨0, ![]⟩ : Shape).BroadcastsInDim (⟨1, ![a]⟩ : Shape) ![])
  (h1 : (⟨1, ![a]⟩ : Shape).BroadcastsInDim ⟨2, ![a, 1]⟩ ![0])
  (h2 : (⟨2, ![a, 1]⟩ : Shape).BroadcastsInDim ⟨2, ![a, b]⟩ ![0, 1])

include hr

/-- The host's shifted exponentials: the row's largest entry is first met with -∞ once more, which changes nothing. -/
theorem host_shifted_exp_apply (p : Fin a) (q : Fin b) :
    Host.exp (subf L (broadcastInDim ⟨2, ![a, b]⟩ ![0, 1] h2 (broadcastInDim ⟨2, ![a, 1]⟩ ![0] h1
      (maximumf (broadcastInDim (⟨1, ![a]⟩ : Shape) ![] h0 (constant (F := Ideal) (⟨0, ![]⟩ : Shape) .f32 0xFF800000#32))
        (Host.reduce FloatOps.maximumf L (constant (F := Ideal) (⟨0, ![]⟩ : Shape) .f32 0xFF800000#32) hr' hu))))) (ix2 p q)
      = Ideal.exp (L (ix2 p q) - rowMax fun j => L (ix2 p j)) := by
  show Ideal.exp (L (ix2 p q) - broadcastInDim ⟨2, ![a, b]⟩ ![0, 1] h2 (broadcastInDim ⟨2, ![a, 1]⟩ ![0] h1
      (maximumf (broadcastInDim (⟨1, ![a]⟩ : Shape) ![] h0 (constant (F := Ideal) (⟨0, ![]⟩ : Shape) .f32 0xFF800000#32))
        (Host.reduce FloatOps.maximumf L (constant (F := Ideal) (⟨0, ![]⟩ : Shape) .f32 0xFF800000#32) hr' hu))) (ix2 p q)) = _
  rw [broadcastInDim_a1_ab_apply, broadcastInDim_a_a1_apply, maximumf_apply, Column.broadcastInDim_scalar_apply,
    host_max_apply L hr' hr hu p]
  show Ideal.exp (L (ix2 p q) - max (Ideal.ofBits .f32 0xFF800000#32) _) = _
  rw [ofBits_negInf_f32, max_eq_right bot_le]

/-- The host's row softmax of an `[a, b]` array, read at `(p, q)`. -/
theorem host_softmax_apply (p : Fin a) (q : Fin b) :
    Host.divf (Host.exp (subf L (broadcastInDim ⟨2, ![a, b]⟩ ![0, 1] h2 (broadcastInDim ⟨2, ![a, 1]⟩ ![0] h1
        (maximumf (broadcastInDim (⟨1, ![a]⟩ : Shape) ![] h0 (constant (F := Ideal) (⟨0, ![]⟩ : Shape) .f32 0xFF800000#32))
          (Host.reduce FloatOps.maximumf L (constant (F := Ideal) (⟨0, ![]⟩ : Shape) .f32 0xFF800000#32) hr' hu))))))
      (broadcastInDim ⟨2, ![a, b]⟩ ![0, 1] h2 (broadcastInDim ⟨2, ![a, 1]⟩ ![0] h1
        (Host.reduceAdd (Host.exp (subf L (broadcastInDim ⟨2, ![a, b]⟩ ![0, 1] h2 (broadcastInDim ⟨2, ![a, 1]⟩ ![0] h1
          (maximumf (broadcastInDim (⟨1, ![a]⟩ : Shape) ![] h0 (constant (F := Ideal) (⟨0, ![]⟩ : Shape) .f32 0xFF800000#32))
            (Host.reduce FloatOps.maximumf L (constant (F := Ideal) (⟨0, ![]⟩ : Shape) .f32 0xFF800000#32) hr' hu))))))
          (constant (F := Ideal) (⟨0, ![]⟩ : Shape) .f32 0x00000000#32) hr' hu))) (ix2 p q)
      = softmaxRow (fun j => L (ix2 p j)) q := by
  rw [hostDivf_apply, broadcastInDim_a1_ab_apply, broadcastInDim_a_a1_apply, host_sum_apply _ hr' hr hu p]
  unfold softmaxRow
  simp only [host_shifted_exp_apply L hr' hr hu h0 h1 h2]

end host

end Idealize.ShloMosaic.RowSoftmax

end
-- ==== Proof.LibLaneNorm.lean ====
/-
  A row normalisation inside a kernel, read at an entry.

  A row `x` of `n` extended reals is normalised by subtracting its mean `μ = (Σ x) / N`, multiplying by the
  reciprocal square root of its variance `(Σ (x - μ)²) / N` plus a small constant, and then scaling and shifting
  entry `d` by `g d` and `b d`:   normRow x d = (x d - μ) · rsqrt (var + ε) · g d + b d.

  A kernel spells this on an `[a, n]` block with two lane sums along the second axis, each kept as an `[a, 1]`
  column and laid back along the rows, the scale and the shift each one row `[1, n]` laid along every row of the
  block. Over the extended reals the block read at entry `(p, d)` is the normalisation of row `p` at `d`.
-/
import Idealize.ShloMosaic.Lib.ValueIdx
import Idealize.ShloMosaic.Lib.ValueLayout
import Idealize.ShloMosaic.PureOps.Ideal.Laws
import proofs.«160184_j70583492542479_2_alg».proof.Proof.LibColumn
import proofs.«160184_j70583492542479_2_alg».proof.Proof.LibRowSoftmax

noncomputable section

open scoped BigOperators

namespace Idealize.ShloMosaic.LaneNorm

open Idealize.ShloMosaic Idealize.ShloMosaic.ValueIdx Idealize.ShloMosaic.Column Idealize.ShloMosaic.RowSoftmax

/-- The mean of a row: its sum divided by `N`. -/
def rowMean {n : ℕ} (N : EReal) (x : Fin n → EReal) : EReal := Ideal.div (∑ d : Fin n, x d) N

/-- The variance of a row: the sum of the squared deviations from the mean, divided by `N`. -/
def rowVar {n : ℕ} (N : EReal) (x : Fin n → EReal) : EReal :=
  Ideal.div (∑ d : Fin n, (x d - rowMean N x) * (x d - rowMean N x)) N

/-- Entry `d` of the normalised row, scaled by `g` and shifted by `b`. -/
def normRow {n : ℕ} (N ε : EReal) (x g b : Fin n → EReal) (d : Fin n) : EReal :=
  (x d - rowMean N x) * Ideal.rsqrt (rowVar N x + ε) * g d + b d

/-- A reciprocal square root taken entry by entry, read at an index. -/
theorem rsqrt_apply {s : Shape} {φ : FTy} (v : FVec Ideal s φ) (i : s.Idx) : rsqrt v i = Ideal.rsqrt (v i) := rfl

section kernel
variable {a n : ℕ} (X : FVec Ideal ⟨2, ![a, n]⟩ .f32)
  (hr : (⟨2, ![a, n]⟩ : Shape).Reduces [1] (⟨1, ![a]⟩ : Shape))
  (hc : (⟨1, ![a]⟩ : Shape).ShapeCasts ⟨2, ![a, 1]⟩)
  (hb : (⟨2, ![a, 1]⟩ : Shape).Broadcasts ⟨2, ![a, n]⟩)
  (hφ : FKind.Formats .f32) (hadd : (0x00000000#32 : BitVec 32) = FKind.add.neutral .f32 hφ)
  (Nb : BitVec 32)

/-- The column of row means, at row `p`. -/
theorem lane_mean_apply (p : Fin a) (u : Fin 1) :
    divf (shapeCast ⟨2, ![a, 1]⟩ (multiReduction .add [1] ⟨1, ![a]⟩ X 0x00000000#32 hr hφ hadd) hc)
        (broadcast ⟨2, ![a, 1]⟩ (Scalar.ofBits (F := Ideal) .f32 Nb)) (ix2 p u)
      = rowMean (Ideal.ofBits .f32 Nb) fun d => X (ix2 p d) := by
  show Ideal.div (shapeCast ⟨2, ![a, 1]⟩ (multiReduction .add [1] ⟨1, ![a]⟩ X 0x00000000#32 hr hφ hadd) hc (ix2 p u))
      (Ideal.ofBits .f32 Nb) = _
  rw [shapeCast_a_a1_apply, lane_sum_apply]
  rfl

/-- The block with each row's mean subtracted, at `(p, d)`. -/
theorem lane_centred_apply (p : Fin a) (d : Fin n) :
    subf X (broadcastTo ⟨2, ![a, n]⟩
        (divf (shapeCast ⟨2, ![a, 1]⟩ (multiReduction .add [1] ⟨1, ![a]⟩ X 0x00000000#32 hr hφ hadd) hc)
          (broadcast ⟨2, ![a, 1]⟩ (Scalar.ofBits (F := Ideal) .f32 Nb))) hb) (ix2 p d)
      = X (ix2 p d) - rowMean (Ideal.ofBits .f32 Nb) fun d => X (ix2 p d) := by
  rw [subf_apply, broadcastTo_a1_ab_apply, lane_mean_apply]

/-- The column of row variances, at row `p`. -/
theorem lane_var_apply (p : Fin a) (u : Fin 1) :
    divf (shapeCast ⟨2, ![a, 1]⟩ (multiReduction .add [1] ⟨1, ![a]⟩
          (mulf
            (subf X (broadcastTo ⟨2, ![a, n]⟩
              (divf (shapeCast ⟨2, ![a, 1]⟩ (multiReduction .add [1] ⟨1, ![a]⟩ X 0x00000000#32 hr hφ hadd) hc)
                (broadcast ⟨2, ![a, 1]⟩ (Scalar.ofBits (F := Ideal) .f32 Nb))) hb))
            (subf X (broadcastTo ⟨2, ![a, n]⟩
              (divf (shapeCast ⟨2, ![a, 1]⟩ (multiReduction .add [1] ⟨1, ![a]⟩ X 0x00000000#32 hr hφ hadd) hc)
                (broadcast ⟨2, ![a, 1]⟩ (Scalar.ofBits (F := Ideal) .f32 Nb))) hb)))
          0x00000000#32 hr hφ hadd) hc)
        (broadcast ⟨2, ![a, 1]⟩ (Scalar.ofBits (F := Ideal) .f32 Nb)) (ix2 p u)
      = rowVar (Ideal.ofBits .f32 Nb) fun d => X (ix2 p d) := by
  refine (lane_mean_apply _ hr hc hφ hadd Nb p u).trans ?_
  unfold rowVar rowMean
  refine congrArg (fun s => Ideal.div s (Ideal.ofBits .f32 Nb)) (Finset.sum_congr rfl fun d _ => ?_)
  beta_reduce
  rw [mulf_apply, lane_centred_apply]
  rfl

variable (gamma beta : FVec Ideal ⟨2, ![1, n]⟩ .f32)
  (hg : (⟨2, ![1, n]⟩ : Shape).Broadcasts ⟨2, ![a, n]⟩) (eb : BitVec 32)

/-- The kernel's normalisation of an `[a, n]` block, scaled and shifted by one row each, read at `(p, d)`. -/
theorem lane_norm_apply (p : Fin a) (d : Fin n) :
    addf (mulf (mulf
        (subf X (broadcastTo ⟨2, ![a, n]⟩
          (divf (shapeCast ⟨2, ![a, 1]⟩ (multiReduction .add [1] ⟨1, ![a]⟩ X 0x00000000#32 hr hφ hadd) hc)
            (broadcast ⟨2, ![a, 1]⟩ (Scalar.ofBits (F := Ideal) .f32 Nb))) hb))
        (broadcastTo ⟨2, ![a, n]⟩ (rsqrt (addf
          (divf (shapeCast ⟨2, ![a, 1]⟩ (multiReduction .add [1] ⟨1, ![a]⟩
              (mulf
                (subf X (broadcastTo ⟨2, ![a, n]⟩
                  (divf (shapeCast ⟨2, ![a, 1]⟩ (multiReduction .add [1] ⟨1, ![a]⟩ X 0x00000000#32 hr hφ hadd) hc)
                    (broadcast ⟨2, ![a, 1]⟩ (Scalar.ofBits (F := Ideal) .f32 Nb))) hb))
                (subf X (broadcastTo ⟨2, ![a, n]⟩
                  (divf (shapeCast ⟨2, ![a, 1]⟩ (multiReduction .add [1] ⟨1, ![a]⟩ X 0x00000000#32 hr hφ hadd) hc)
                    (broadcast ⟨2, ![a, 1]⟩ (Scalar.ofBits (F := Ideal) .f32 Nb))) hb)))
              0x00000000#32 hr hφ hadd) hc)
            (broadcast ⟨2, ![a, 1]⟩ (Scalar.ofBits (F := Ideal) .f32 Nb)))
          (broadcast ⟨2, ![a, 1]⟩ (Scalar.ofBits (F := Ideal) .f32 eb)))) hb))
        (broadcastTo ⟨2, ![a, n]⟩ gamma hg))
      (broadcastTo ⟨2, ![a, n]⟩ beta hg) (ix2 p d)
      = normRow (Ideal.ofBits .f32 Nb) (Ideal.ofBits .f32 eb) (fun d => X (ix2 p d))
          (fun d => gamma (ix2 (0 : Fin 1) d)) (fun d => beta (ix2 (0 : Fin 1) d)) d := by
  rw [addf_apply, mulf_apply, mulf_apply, lane_centred_apply, broadcastTo_1b_ab_apply, broadcastTo_1b_ab_apply,
    broadcastTo_a1_ab_apply]
  rw [rsqrt_apply, addf_apply, lane_var_apply, broadcast_apply]
  rfl

end kernel

end Idealize.ShloMosaic.LaneNorm

end
-- ==== Proof.Spec.lean ====
/-
  The function both programs compute, entry by entry, on the extended reals.

  For batch `b` every row `s` of `h` (768 entries) is normalised — mean and variance over the row, the reciprocal
  square root of the variance plus a small constant, then the scale `γ` and the shift `β` —; the normalised row is
  projected twice, to a query row (weights `wq`, bias `bq`) and to a key row (weights `wk`, bias `bk`), each
  `Σ d, hn d · W (d, e) + bias e`; the score of query row `q` against key row `k` is the dot product of the two
  projections over their 768 entries; and row `q` of the result is the softmax of its 2048 scores.
-/
import Idealize.ShloMosaic.PureOps.Ideal
import Idealize.ShloMosaic.Lib.ValueIdx
import proofs.«160184_j70583492542479_2_alg».proof.Proof.LibRowSoftmax
import proofs.«160184_j70583492542479_2_alg».proof.Proof.LibLaneNorm

noncomputable section

open scoped BigOperators

namespace Cert.Spec

open Idealize.ShloMosaic Idealize.ShloMosaic.ValueIdx Idealize.ShloMosaic.RowSoftmax Idealize.ShloMosaic.LaneNorm

/-- The row width 768, as the extended real its f32 pattern denotes. -/
abbrev width : EReal := Ideal.ofBits .f32 0x44400000#32

/-- The small constant added to the variance, as the extended real its f32 pattern denotes. -/
abbrev eps : EReal := Ideal.ofBits .f32 0x3727C5AC#32

section
variable (h : (⟨3, ![8, 2048, 768]⟩ : Shape).Idx → EReal) (γ β : (⟨1, ![768]⟩ : Shape).Idx → EReal)

/-- Row `s` of batch `b`, normalised, scaled and shifted. -/
def hn (b : Fin 8) (s : Fin 2048) : Fin 768 → EReal :=
  normRow width eps (fun d => h (ix3 b s d)) (fun d => γ (ix1 d)) (fun d => β (ix1 d))

/-- Entry `e` of the projection of that row by the weights `W` and the bias. -/
def proj (W : (⟨2, ![768, 768]⟩ : Shape).Idx → EReal) (bias : (⟨1, ![768]⟩ : Shape).Idx → EReal)
    (b : Fin 8) (s : Fin 2048) (e : Fin 768) : EReal :=
  (∑ d : Fin 768, hn h γ β b s d * W (ix2 d e)) + bias (ix1 e)

variable (wq : (⟨2, ![768, 768]⟩ : Shape).Idx → EReal) (bq : (⟨1, ![768]⟩ : Shape).Idx → EReal)
  (wk : (⟨2, ![768, 768]⟩ : Shape).Idx → EReal) (bk : (⟨1, ![768]⟩ : Shape).Idx → EReal)

/-- The score of query row `q` against key row `k` of batch `b`. -/
def score (b : Fin 8) (q k : Fin 2048) : EReal :=
  ∑ e : Fin 768, proj h γ β wq bq b q e * proj h γ β wk bk b k e

/-- Entry `(b, q, k)` of the result: the softmax of row `q`'s scores, at `k`. -/
def entry (b : Fin 8) (q k : Fin 2048) : EReal :=
  softmaxRow (fun k' : Fin 2048 => score h γ β wq bq wk bk b q k') k

/-- The whole result array. -/
def G : (⟨3, ![8, 2048, 2048]⟩ : Shape).Idx → EReal := fun i =>
  entry h γ β wq bq wk bk (i 0) (i 1) (i 2)

theorem G_apply (b : Fin 8) (q k : Fin 2048) :
    G h γ β wq bq wk bk (ix3 b q k) = entry h γ β wq bq wk bk b q k := rfl

end

end Cert.Spec

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«160184_j70583492542479_2_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.LibDenseRows.lean ====
/-
  A layer computed from weight rows, read at an index.

  A kernel may multiply a block of `K` item rows `[K, N]` by `Q` weight rows `[Q, N]` without transposing
  the weights: the matrix unit contracts the second axis of both operands. Into a zero accumulator, over the extended
  reals, entry `(p, q)` of the product is the plain sum `Σ n, X (p, n) * W (q, n)`; with a bias row `[1, Q]`
  laid along every row of the block added, it is that sum plus `bias (0, q)`. In particular column `q` of the
  result depends on row `q` of the weights and entry `q` of the bias only.
-/
import Idealize.ShloMosaic.Lib.ValueIdx
import Idealize.ShloMosaic.Lib.ValueLayout
import Idealize.ShloMosaic.PureOps.Ideal.Laws

noncomputable section

namespace Idealize.ShloMosaic.DenseRows

open Idealize.ShloMosaic Idealize.ShloMosaic.ValueIdx

/-- The dimension numbers of `[K, N] · [Q, N]ᵀ → [K, Q]`. -/
abbrev rowDims (K N Q : Nat)
    (wf : DotDims.WF ⟨2, ![K, N]⟩ ⟨2, ![Q, N]⟩ ⟨2, ![K, Q]⟩ [1] [1] [0] [0] [] []) :
    DotDims ⟨2, ![K, N]⟩ ⟨2, ![Q, N]⟩ ⟨2, ![K, Q]⟩ where
  lhsContracting := [1]
  rhsContracting := [1]
  lhsNonContracting := [0]
  rhsNonContracting := [0]
  lhsBatch := []
  rhsBatch := []
  wf := wf

section
variable {K N Q : Nat} (wf : DotDims.WF ⟨2, ![K, N]⟩ ⟨2, ![Q, N]⟩ ⟨2, ![K, Q]⟩ [1] [1] [0] [0] [] [])

/-- The left operand's row is the result's row. -/
theorem lhs_row (j : (⟨2, ![K, Q]⟩ : Shape).Idx) (c : (rowDims K N Q wf).contr.Idx) :
    ((rowDims K N Q wf).lhsIdx j c (0 : Fin 2)).val = (j 0).val := by
  unfold DotDims.lhsIdx
  rw [dif_neg (show ¬ (0 : Fin 2) ∈ (rowDims K N Q wf).lhsBatch from List.not_mem_nil),
    dif_pos (show (0 : Fin 2) ∈ (rowDims K N Q wf).lhsNonContracting from List.mem_singleton.mpr rfl)]
  rfl

/-- The left operand's column is the contraction position. -/
theorem lhs_col (j : (⟨2, ![K, Q]⟩ : Shape).Idx) (c : (rowDims K N Q wf).contr.Idx) :
    ((rowDims K N Q wf).lhsIdx j c (1 : Fin 2)).val = (c ⟨0, Nat.one_pos⟩).val :=
  (rowDims K N Q wf).lhsIdx_val_of_single rfl j c

/-- The right operand's row is the result's column. -/
theorem rhs_row (j : (⟨2, ![K, Q]⟩ : Shape).Idx) (c : (rowDims K N Q wf).contr.Idx) :
    ((rowDims K N Q wf).rhsIdx j c (0 : Fin 2)).val = (j 1).val := by
  unfold DotDims.rhsIdx
  rw [dif_neg (show ¬ (0 : Fin 2) ∈ (rowDims K N Q wf).rhsBatch from List.not_mem_nil),
    dif_pos (show (0 : Fin 2) ∈ (rowDims K N Q wf).rhsNonContracting from List.mem_singleton.mpr rfl)]
  rfl

/-- The right operand's column is the contraction position. -/
theorem rhs_col (j : (⟨2, ![K, Q]⟩ : Shape).Idx) (c : (rowDims K N Q wf).contr.Idx) :
    ((rowDims K N Q wf).rhsIdx j c (1 : Fin 2)).val = (c ⟨0, Nat.one_pos⟩).val :=
  (rowDims K N Q wf).rhsIdx_val_of_single rfl j c

/-- Entry `(p, q)` of the product into a zero accumulator is `Σ n, X (p, n) * W (q, n)`. -/
theorem matmul_rows_zero_apply {φ₁ φ₂ : FTy} (X : FVec Ideal ⟨2, ![K, N]⟩ φ₁) (W : FVec Ideal ⟨2, ![Q, N]⟩ φ₂)
    (p : Fin K) (q : Fin Q) :
    FloatOps.matmul (rowDims K N Q wf) none X W (constant ⟨2, ![K, Q]⟩ .f32 0x00000000#32) (ix2 p q)
      = ∑ n : Fin N, X (ix2 p n) * W (ix2 q n) := by
  rw [Ideal.matmul_constant_zero_apply, ← Equiv.sum_comp (contrEquiv1 (rowDims K N Q wf) N rfl rfl).symm]
  refine Finset.sum_congr rfl fun n _ => ?_
  have hn := contrEquiv1_symm_val (rowDims K N Q wf) N rfl rfl n
  have el : (rowDims K N Q wf).lhsIdx (ix2 p q) ((contrEquiv1 (rowDims K N Q wf) N rfl rfl).symm n) = ix2 p n :=
    funext fun a => Fin.ext (by
      match a with
      | ⟨0, _⟩ => exact lhs_row wf _ _
      | ⟨1, _⟩ => exact (lhs_col wf _ _).trans hn)
  have er : (rowDims K N Q wf).rhsIdx (ix2 p q) ((contrEquiv1 (rowDims K N Q wf) N rfl rfl).symm n) = ix2 q n :=
    funext fun a => Fin.ext (by
      match a with
      | ⟨0, _⟩ => exact rhs_row wf _ _
      | ⟨1, _⟩ => exact (rhs_col wf _ _).trans hn)
  rw [el, er]

/-- Entry `(p, q)` of `X · Wᵀ + bias`, the bias one row laid along every row. -/
theorem affine_rows_apply {φ₁ φ₂ : FTy} (X : FVec Ideal ⟨2, ![K, N]⟩ φ₁) (W : FVec Ideal ⟨2, ![Q, N]⟩ φ₂)
    (bias : FVec Ideal ⟨2, ![1, Q]⟩ .f32) (hb : (⟨2, ![1, Q]⟩ : Shape).Broadcasts ⟨2, ![K, Q]⟩) (p : Fin K) (q : Fin Q) :
    addf (matmul (rowDims K N Q wf) none X W (constant ⟨2, ![K, Q]⟩ .f32 0x00000000#32))
        (broadcastTo ⟨2, ![K, Q]⟩ bias hb) (ix2 p q)
      = (∑ n : Fin N, X (ix2 p n) * W (ix2 q n)) + bias (ix2 (0 : Fin 1) q) := by
  show FloatOps.matmul (rowDims K N Q wf) none X W (constant ⟨2, ![K, Q]⟩ .f32 0x00000000#32) (ix2 p q)
      + broadcastTo ⟨2, ![K, Q]⟩ bias hb (ix2 p q) = _
  rw [matmul_rows_zero_apply wf X W p q, broadcastTo_1b_ab_apply bias hb p q]

end

end Idealize.ShloMosaic.DenseRows

end
-- ==== Proof.Payloads.lean ====
/-
  The kernel body's three values, read at an entry on the extended reals.

  The body computes, from the blocks it loads: the query projection of a tile of 1024 rows before its bias (each
  row normalised, then multiplied by the query weights); the key projection of all 2048 rows of the batch with its
  bias, which it keeps in a scratch buffer; and, from the query tile, the query bias and the kept keys, the block of
  scores and its row softmax. A change of float format is the identity on the extended reals, the matrix unit's
  products into a zero accumulator are plain sums, and the lane reductions are sums and maxima over a row.
-/
import proofs.«160184_j70583492542479_2_alg».proof.Proof.Gen.KernelIdeal.Skeleton
import proofs.«160184_j70583492542479_2_alg».proof.Proof.Spec
import proofs.«160184_j70583492542479_2_alg».proof.Proof.LibLaneNorm
import proofs.«160184_j70583492542479_2_alg».proof.Proof.LibRowSoftmax
import proofs.«160184_j70583492542479_2_alg».proof.Proof.LibDenseBlock
import proofs.«160184_j70583492542479_2_alg».proof.Proof.LibDenseLayer
import proofs.«160184_j70583492542479_2_alg».proof.Proof.LibDenseRows
import Idealize.ShloMosaic.Lib.ValueLayout
import Idealize.ShloMosaic.Lib.Pipeline.Value

noncomputable section

open scoped BigOperators

namespace Cert.KernelIdeal.Payloads

open Cert.KernelIdeal Cert.KernelIdeal.Gen Idealize.ShloMosaic Idealize.ShloMosaic.ValueIdx
open Idealize.ShloMosaic.LaneNorm Idealize.ShloMosaic.RowSoftmax Idealize.ShloMosaic.DenseBlock
open Idealize.ShloMosaic.DenseLayer Idealize.ShloMosaic.DenseRows Cert.Spec

/-- Row `p` of a block with a leading unit axis, normalised with the scale row `g` and the shift row `b`. -/
abbrev blockNorm {a : ℕ} (x : (⟨3, ![1, a, 768]⟩ : Shape).Idx → EReal) (g b : (⟨2, ![1, 768]⟩ : Shape).Idx → EReal)
    (p : Fin a) : Fin 768 → EReal :=
  normRow width eps (fun d => x (ix3 (0 : Fin 1) p d)) (fun d => g (ix2 (0 : Fin 1) d)) (fun d => b (ix2 (0 : Fin 1) d))

/-- The query projection of a tile before its bias: entry `(p, e)` is the normalised row `p` times column `e` of
    the query weights. -/
theorem pay5_apply (v0 v2 : Vec Ideal S1x768 .f32) (v10 : Vec Ideal S1x1024x768 .f32) (v35 : Vec Ideal S768x768 .bf16)
    (p : Fin 1024) (e : Fin 768) :
    k0_pay5 v0 v2 v10 v35 (ix2 p e) = ∑ d : Fin 768, blockNorm v10 v0 v2 p d * v35 (ix2 d e) := by
  unfold k0_pay5 k0_pay2 k0_pay3
  dsimp only
  refine (matmul_zero_apply (K := 1024) (N := 768) (Q := 768) (φ₁ := .bf16) (φ₂ := .bf16)
    dot_S1024x768_S768x768_S1024x768_1_0_0_1_n_n_wf _ _ p e).trans ?_
  refine Finset.sum_congr rfl fun d _ => congrArg₂ (· * ·) ?_ ?_
  · refine (lane_norm_apply (a := 1024) (n := 768) _ reduces_S1024x768_S1024 shapeCasts_S1024_S1024x1
      broadcasts_S1024x1_S1024x768 (.inl rfl) rfl 0x44400000#32 _ _ broadcasts_S1x768_S1024x768 0x3727C5AC#32 p d).trans ?_
    simp only [shapeCast_1ab_ab_apply, shapeCast_self]
  · exact congrFun (shapeCast_self _ _) _

/-- The key projection the body keeps: entry `(s, e)` is the normalised row `s` times column `e` of the key
    weights, plus the key bias at `e`. -/
theorem pay4_apply (v0 v2 : Vec Ideal S1x768 .f32) (v57 : Vec Ideal S1x2048x768 .f32) (v82 : Vec Ideal S768x768 .bf16)
    (v85 : Vec Ideal S1x768 .f32) (s : Fin 2048) (e : Fin 768) :
    k0_pay4 v0 v2 v57 v82 v85 (ix2 s e)
      = (∑ d : Fin 768, blockNorm v57 v0 v2 s d * v82 (ix2 d e)) + v85 (ix2 (0 : Fin 1) e) := by
  unfold k0_pay4 k0_pay2 k0_pay3
  dsimp only
  refine (congrFun (shapeCast_self _ _) _).trans ?_
  refine (affine_apply (K := 2048) (N := 768) (Q := 768) (φ₁ := .bf16) (φ₂ := .bf16)
    dot_S2048x768_S768x768_S2048x768_1_0_0_1_n_n_wf _ _ _
    broadcasts_S1x768_S2048x768 s e).trans ?_
  refine congrArg₂ (· + ·) (Finset.sum_congr rfl fun d _ => congrArg₂ (· * ·) ?_ ?_) ?_
  · refine (lane_norm_apply (a := 2048) (n := 768) _ reduces_S2048x768_S2048 shapeCasts_S2048_S2048x1
      broadcasts_S2048x1_S2048x768 (.inl rfl) rfl 0x44400000#32 _ _ broadcasts_S1x768_S2048x768 0x3727C5AC#32 s d).trans ?_
    simp only [shapeCast_1ab_ab_apply, shapeCast_self]
  · exact congrFun (shapeCast_self _ _) _
  · exact congrFun (shapeCast_self _ _) _

/-- The block the body stores: entry `(p, k)` is the softmax, at `k`, of row `p`'s scores — the query row (with its
    bias) against each kept key row. -/
theorem pay1_apply (v37 : FVec Ideal S1024x768 .f32) (v38 : Vec Ideal S1x768 .f32) (v43 : Vec Ideal S2048x768 .bf16)
    (u : Fin 1) (p : Fin 1024) (k : Fin 2048) :
    k0_pay1 v37 v38 v43 (ix3 u p k)
      = softmaxRow (fun k' : Fin 2048 => ∑ e : Fin 768, (v37 (ix2 p e) + v38 (ix2 (0 : Fin 1) e)) * v43 (ix2 k' e)) k := by
  unfold k0_pay1
  dsimp only
  refine (shapeCast_ab_1ab_apply _ _ u p k).trans ?_
  refine (lane_softmax_apply (a := 1024) (b := 2048) _ reduces_S1024x2048_S1024 shapeCasts_S1024_S1024x1
    broadcasts_S1024x1_S1024x2048 (.inl rfl) rfl (.inl rfl) rfl p k).trans ?_
  refine congrArg (fun f => softmaxRow f k) (funext fun k' => ?_)
  refine (matmul_rows_zero_apply (K := 1024) (N := 768) (Q := 2048) (φ₁ := .bf16) (φ₂ := .bf16)
    dot_S1024x768_S2048x768_S1024x2048_1_1_0_0_n_n_wf _ _ p k').trans ?_
  refine Finset.sum_congr rfl fun e _ => congrArg₂ (· * ·) ?_ rfl
  refine (addf_apply _ _ _).trans ?_
  refine congrArg₂ (· + ·) rfl ?_
  refine (broadcastTo_1b_ab_apply _ _ p e).trans ?_
  exact congrFun (shapeCast_self _ _) _

end Cert.KernelIdeal.Payloads

end
-- ==== Proof.Pieces.lean ====
/-
  What the body leaves behind at a grid point, as values of the blocks it loaded.

  The body is run in two cases. At the first query tile of a batch it stores the batch's key projection whole into
  the scratch buffer, reads it back, and stores the block of softmax rows; at the second tile it stores nothing
  into the scratch, which still holds what the first tile left, and stores the block of softmax rows computed from
  that. In both cases the query tile is the 1024 rows of the batch's block starting at row 1024·(tile number).
-/
import proofs.«160184_j70583492542479_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The query tile at grid coordinates `i`: 1024 rows of the batch's block `x0`, from the tile's first row on. -/
abbrev tile (i : grid0.Coords) (x0 : Vec F S1x2048x768 .f32) : Vec F S1x1024x768 .f32 :=
  View.ld x0 (Rect.unit (s := S1x2048x768) (k0_off1 i) S1x1024x768.size (k0_off1_inb i))

/-- The block of softmax rows from the batch's block, the scale, shift, weight and bias blocks, and kept keys `ks`. -/
abbrev rowsOf (i : grid0.Coords) (x0 : Vec F S1x2048x768 .f32) (x1 x2 : Vec F S1x768 .f32) (x3 : Vec F S768x768 .bf16)
    (x4 : Vec F S1x768 .f32) (ks : Vec F S2048x768 .bf16) : Vec F S1x1024x2048 .f32 :=
  k0_pay1 (k0_pay5 x1 x2 (tile i x0) x3) x4 ks

/-- At a first tile the scratch ends holding the batch's key projection. -/
theorem sout_A (c : Dev nD) (i : grid0.Coords) (arg2 : Memref sig .tc .vmem S1x2048x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x2048 .f32) (harg9 : arg9.IsWhole) (arg10 : Memref sig .tc .vmem S2048x768 .bf16) (harg10 : arg10.IsWhole) (hc0 : cond0_0 i) (x0 : Vec F S1x2048x768 .f32) (x1 : Vec F S1x768 .f32) (x2 : Vec F S1x768 .f32) (x3 : Vec F S768x768 .bf16) (x4 : Vec F S1x768 .f32) (x5 : Vec F S768x768 .bf16) (x6 : Vec F S1x768 .f32) :
    sout0_A_0 c i arg2 harg2 arg3 harg3 arg4 harg4 arg5 harg5 arg6 harg6 arg7 harg7 arg8 harg8 arg9 harg9 arg10 harg10 hc0 x0 x1 x2 x3 x4 x5 x6 = k0_pay4 x1 x2 x0 x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz2]
  simp only [View.readAt_eq_ld, harg2.read_unread, harg3.read_unread, harg4.read_unread, harg7.read_unread, harg8.read_unread,
    View.ld_unit_zero (S := S1x768) hz2, View.ld_unit_zero (S := S768x768) hz2, View.ld_unit_zero (S := S1x2048x768) hz3]

/-- At a first tile the output block is the softmax rows over the key projection just stored. -/
theorem out_A (c : Dev nD) (i : grid0.Coords) (arg2 : Memref sig .tc .vmem S1x2048x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x2048 .f32) (harg9 : arg9.IsWhole) (arg10 : Memref sig .tc .vmem S2048x768 .bf16) (harg10 : arg10.IsWhole) (hc0 : cond0_0 i) (x0 : Vec F S1x2048x768 .f32) (x1 : Vec F S1x768 .f32) (x2 : Vec F S1x768 .f32) (x3 : Vec F S768x768 .bf16) (x4 : Vec F S1x768 .f32) (x5 : Vec F S768x768 .bf16) (x6 : Vec F S1x768 .f32) :
    out0_A_7 c i arg2 harg2 arg3 harg3 arg4 harg4 arg5 harg5 arg6 harg6 arg7 harg7 arg8 harg8 arg9 harg9 arg10 harg10 hc0 x0 x1 x2 x3 x4 x5 x6 = rowsOf i x0 x1 x2 x3 x4 (k0_pay4 x1 x2 x0 x5 x6) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero (S := S1x1024x2048) hz3, View.readCov_unit_zero (S := S2048x768) _ hz2]
  simp only [View.readAt_eq_ld, harg2.read_unread, harg3.read_unread, harg4.read_unread, harg5.read_unread, harg6.read_unread,
    harg7.read_unread, harg8.read_unread,
    View.ld_unit_zero (S := S1x768) hz2, View.ld_unit_zero (S := S768x768) hz2, View.ld_unit_zero (S := S1x2048x768) hz3]
  rfl

/-- At a second tile the output block is the softmax rows over what the scratch held. -/
theorem out_B (c : Dev nD) (i : grid0.Coords) (arg2 : Memref sig .tc .vmem S1x2048x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x2048 .f32) (harg9 : arg9.IsWhole) (arg10 : Memref sig .tc .vmem S2048x768 .bf16) (harg10 : arg10.IsWhole) (hc0 : ¬cond0_0 i) (x0 : Vec F S1x2048x768 .f32) (x1 : Vec F S1x768 .f32) (x2 : Vec F S1x768 .f32) (x3 : Vec F S768x768 .bf16) (x4 : Vec F S1x768 .f32) (x5 : Vec F S768x768 .bf16) (x6 : Vec F S1x768 .f32) (xs0 : Vec F S2048x768 .bf16) :
    out0_B_7 c i arg2 harg2 arg3 harg3 arg4 harg4 arg5 harg5 arg6 harg6 arg7 harg7 arg8 harg8 arg9 harg9 arg10 harg10 hc0 x0 x1 x2 x3 x4 x5 x6 xs0 = rowsOf i x0 x1 x2 x3 x4 xs0 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero (S := S1x1024x2048) hz3]
  simp only [View.readAt_eq_ld, harg2.read_unread, harg3.read_unread, harg4.read_unread, harg5.read_unread, harg6.read_unread,
    harg10.read_unread,
    View.ld_unit_zero (S := S1x768) hz2, View.ld_unit_zero (S := S768x768) hz2, View.ld_unit_zero (S := S2048x768) hz2]
  rfl

end Cert.KernelIdeal.Pieces

end
-- ==== Proof.BlockValue.lean ====
/-
  A block of the result, entry by entry, from the blocks the body loaded.

  Suppose the blocks the body loads are what they should be: the batch's block holds rows of `h` for batch `b`, the
  scale, shift and bias rows hold `γ`, `β`, `bq`, the weight blocks hold `wq` and `wk`, and the kept keys hold the key
  projection of batch `b`. Then entry `(p, k)` of the block stored at a tile is the specification's entry
  `(b, q, k)` for the row `q = 1024 · (tile number) + p`; and the key projection the body computes at a first tile
  is the specification's, which is what the kept keys then hold.
-/
import proofs.«160184_j70583492542479_2_alg».proof.Proof.Payloads
import proofs.«160184_j70583492542479_2_alg».proof.Proof.Pieces

noncomputable section

open scoped BigOperators

namespace Cert.KernelIdeal.BlockValue

open Cert.KernelIdeal Cert.KernelIdeal.Gen Cert.KernelIdeal.Pieces Cert.KernelIdeal.Payloads
open Idealize.ShloMosaic Idealize.ShloMosaic.ValueIdx Idealize.ShloMosaic.LaneNorm Idealize.ShloMosaic.RowSoftmax Cert.Spec

/-- Row `p` of the query tile is row `1024 · (tile number) + p` of the batch's block. -/
theorem tile_apply {F : FTy → Type} [FloatOps F] (i : grid0.Coords) (x0 : Vec F S1x2048x768 .f32) (u : Fin 1) (p : Fin 1024)
    (d : Fin 768) (s : Fin 2048) (hs : s.val = 1024 * (i 1).val + p.val) :
    tile i x0 (ix3 u p d) = x0 (ix3 (0 : Fin 1) s d) := by
  show x0 _ = x0 _
  refine congrArg x0 (funext fun a => Fin.ext ?_)
  have hu : u.val = 0 := by omega
  match a with
  | ⟨0, _⟩ => show k0_off1 i 0 + 1 * u.val = 0; rw [k0_off1_eq i]; show 0 + 1 * u.val = 0; omega
  | ⟨1, _⟩ => show k0_off1 i 1 + 1 * p.val = s.val; rw [k0_off1_eq i]; show 1024 * (i 1).val + 1 * p.val = s.val; omega
  | ⟨2, _⟩ => show k0_off1 i 2 + 1 * d.val = d.val; rw [k0_off1_eq i]; show 0 + 1 * d.val = d.val; omega

section
variable (x0 : Vec Ideal S1x2048x768 .f32) (x1 x2 : Vec Ideal S1x768 .f32)
  (h : (⟨3, ![8, 2048, 768]⟩ : Shape).Idx → EReal) (γ β : (⟨1, ![768]⟩ : Shape).Idx → EReal) (b : Fin 8)
  (h0 : ∀ (s : Fin 2048) (d : Fin 768), x0 (ix3 (0 : Fin 1) s d) = h (ix3 b s d))
  (h1 : ∀ d : Fin 768, x1 (ix2 (0 : Fin 1) d) = γ (ix1 d))
  (h2 : ∀ d : Fin 768, x2 (ix2 (0 : Fin 1) d) = β (ix1 d))

include h0 h1 h2

/-- The key projection computed at a first tile is the specification's. -/
theorem keys_entry (x5 : Vec Ideal S768x768 .bf16) (x6 : Vec Ideal S1x768 .f32)
    (wk : (⟨2, ![768, 768]⟩ : Shape).Idx → EReal) (bk : (⟨1, ![768]⟩ : Shape).Idx → EReal)
    (h5 : ∀ d e : Fin 768, x5 (ix2 d e) = wk (ix2 d e)) (h6 : ∀ e : Fin 768, x6 (ix2 (0 : Fin 1) e) = bk (ix1 e))
    (s : Fin 2048) (e : Fin 768) :
    k0_pay4 x1 x2 x0 x5 x6 (ix2 s e) = proj h γ β wk bk b s e := by
  rw [pay4_apply]
  unfold proj hn
  simp only [blockNorm, h0, h1, h2, h5, h6]

/-- Entry `(p, k)` of the block stored at a tile is the specification's entry `(b, q, k)`. -/
theorem rows_entry (i : grid0.Coords) (x3 : Vec Ideal S768x768 .bf16) (x4 : Vec Ideal S1x768 .f32) (ks : Vec Ideal S2048x768 .bf16)
    (wq : (⟨2, ![768, 768]⟩ : Shape).Idx → EReal) (bq : (⟨1, ![768]⟩ : Shape).Idx → EReal)
    (wk : (⟨2, ![768, 768]⟩ : Shape).Idx → EReal) (bk : (⟨1, ![768]⟩ : Shape).Idx → EReal)
    (h3 : ∀ d e : Fin 768, x3 (ix2 d e) = wq (ix2 d e)) (h4 : ∀ e : Fin 768, x4 (ix2 (0 : Fin 1) e) = bq (ix1 e))
    (hk : ∀ (s : Fin 2048) (e : Fin 768), ks (ix2 s e) = proj h γ β wk bk b s e)
    (u : Fin 1) (p : Fin 1024) (k q : Fin 2048) (hq : q.val = 1024 * (i 1).val + p.val) :
    rowsOf i x0 x1 x2 x3 x4 ks (ix3 u p k) = entry h γ β wq bq wk bk b q k := by
  show k0_pay1 _ _ _ (ix3 u p k) = _
  rw [pay1_apply]
  unfold entry score
  refine congrArg (fun f => softmaxRow f k) (funext fun k' => Finset.sum_congr rfl fun e _ => ?_)
  rw [hk, pay5_apply]
  refine congrArg (· * _) ?_
  unfold proj hn
  simp only [blockNorm, show ∀ d : Fin 768, tile i x0 (ix3 (0 : Fin 1) p d) = x0 (ix3 (0 : Fin 1) q d) from
    fun d => tile_apply i x0 0 p d q hq, h0, h1, h2, h3, h4]

end

end Cert.KernelIdeal.BlockValue

end
-- ==== Proof.ArrayValue.lean ====
/-
  The kernel's result array is the specification.

  The grid has sixteen points, two query tiles for each of the eight batches, the first tile of a batch at the even
  points. At every point the batch's block of `h` is rows of batch `⌊t / 2⌋`, the scale, shift and bias windows
  hold `γ`, `β`, `bq`, `bk` stood up as one row, the weight windows hold `wq` and `wk`, and the output block is
  rows `1024 · (t mod 2) …` of batch `⌊t / 2⌋`. At an even point the body computes the batch's key projection and
  keeps it; at the odd point after it the scratch still holds it, for the same batch. So every block written back
  is a block of the specification, and the sixteen blocks tile the result array.
-/
import proofs.«160184_j70583492542479_2_alg».proof.Proof.Gen.KernelIdeal.Value
import proofs.«160184_j70583492542479_2_alg».proof.Proof.BlockValue
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Value Cert.KernelIdeal.Pieces Cert.KernelIdeal.BlockValue Cert.Spec

variable (m : (ℓ : Loc nD τ sig) → Buf (Elt Ideal) ℓ) (ρ : Dev nD → PrngReg)

/-- The result array as the specification of the argument arrays. -/
abbrev result (c : Dev nD) : Buf (Elt Ideal) ((c : Thread nD τ).loc main_v6) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The printed index maps over the grid: batch `⌊t / 2⌋`, tile `t mod 2`; every other window at its one block. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 2 ∧ win0_7.index t (1 : Fin 3) = t.val % 2 ∧ win0_7.index t (2 : Fin 3) = 0
    ∧ ((grid0.coords t) 1).val = t.val % 2 :=
  (by decide +kernel : ∀ t : Fin grid0.N, _)

/-- Every block of the result array is some point's. -/
theorem idx_onto : ∀ (q0 : Fin 8) (q1 : Fin 2), ∃ t : Fin cfg0.N, win0_7.index t = ![q0.val, q1.val, 0] :=
  (by decide +kernel : ∀ (q0 : Fin 8) (q1 : Fin 2), ∃ t : Fin grid0.N, win0_7.index t = ![q0.val, q1.val, 0])

/-! ## The arrays the host wrote before the region -/

theorem V_v0 (c : Dev nD) : (V m c main_v0 : S1x768.Idx → EReal) = shapeCast S1x768 (m ((c : Thread nD τ).loc main_arg1)) shapeCasts_S768_S1x768 := by
  dsimp only [Gen.V, Gen.hostOps0]; after_results; rfl
theorem V_v1 (c : Dev nD) : (V m c main_v1 : S1x768.Idx → EReal) = shapeCast S1x768 (m ((c : Thread nD τ).loc main_arg2)) shapeCasts_S768_S1x768 := by
  dsimp only [Gen.V, Gen.hostOps0]; after_results; rfl
theorem V_v2 (c : Dev nD) : (V m c main_v2 : S1x768.Idx → EReal) = shapeCast S1x768 (m ((c : Thread nD τ).loc main_arg4)) shapeCasts_S768_S1x768 := by
  dsimp only [Gen.V, Gen.hostOps0]; after_results; rfl
theorem V_v3 (c : Dev nD) : (V m c main_v3 : S1x768.Idx → EReal) = shapeCast S1x768 (m ((c : Thread nD τ).loc main_arg6)) shapeCasts_S768_S1x768 := by
  dsimp only [Gen.V, Gen.hostOps0]; after_results; rfl
theorem V_v4 (c : Dev nD) : (V m c main_v4 : S768x768.Idx → EReal) = ((m ((c : Thread nD τ).loc main_arg3)) : S768x768.Idx → EReal) := by
  dsimp only [Gen.V, Gen.hostOps0]; after_results; rfl
theorem V_v5 (c : Dev nD) : (V m c main_v5 : S768x768.Idx → EReal) = ((m ((c : Thread nD τ).loc main_arg5)) : S768x768.Idx → EReal) := by
  dsimp only [Gen.V, Gen.hostOps0]; after_results; rfl

/-! ## The input blocks -/

/-- The batch's block of `h`. -/
theorem blk0 (c : Dev nD) (t : Fin cfg0.N) (b : Fin 8) (hb : b.val = t.val / 2) (u : Fin 1) (s : Fin 2048) (d : Fin 768) :
    (iblk m c 0 t : Vec Ideal S1x2048x768 .f32) (ix3 u s d) = (m ((c : Thread nD τ).loc main_arg0)) (ix3 b s d) := by
  obtain ⟨e0, e1, e2, -⟩ := idx_facts t
  have hu : u.val = 0 := by omega
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * u.val = b.val; omega
  | ⟨1, _⟩ => show win0_0.index t (1 : Fin 3) * 2048 + 1 * s.val = s.val; omega
  | ⟨2, _⟩ => show win0_0.index t (2 : Fin 3) * 768 + 1 * d.val = d.val; omega

/-- Window 1: the vector argument 1 stood up as one row. -/
theorem blk1 (c : Dev nD) (t : Fin cfg0.N) (u : Fin 1) (d : Fin 768) :
    (iblk m c 1 t : Vec Ideal S1x768 .f32) (ix2 u d) = (m ((c : Thread nD τ).loc main_arg1)) (ix1 d) := by
  obtain ⟨-, -, -, e0, e1, -⟩ := idx_facts t
  have hu : u.val = 0 := by omega
  unfold iblk
  rw [View.read_apply]
  show V m c main_v0 _ = _
  rw [V_v0]
  have hi : (((cfg0.win 1).blk t).view.emb (ix2 u d) : S1x768.Idx) = ix2 (0 : Fin 1) d := funext fun a => Fin.ext (by
    match a with
    | ⟨0, _⟩ => show win0_1.index t (0 : Fin 2) * 1 + 1 * u.val = 0; omega
    | ⟨1, _⟩ => show win0_1.index t (1 : Fin 2) * 768 + 1 * d.val = d.val; omega)
  rw [hi]
  exact shapeCast_a_1a_apply _ _ _ _

/-- Window 2: the vector argument 2 stood up as one row. -/
theorem blk2 (c : Dev nD) (t : Fin cfg0.N) (u : Fin 1) (d : Fin 768) :
    (iblk m c 2 t : Vec Ideal S1x768 .f32) (ix2 u d) = (m ((c : Thread nD τ).loc main_arg2)) (ix1 d) := by
  obtain ⟨-, -, -, -, -, e0, e1, -⟩ := idx_facts t
  have hu : u.val = 0 := by omega
  unfold iblk
  rw [View.read_apply]
  show V m c main_v1 _ = _
  rw [V_v1]
  have hi : (((cfg0.win 2).blk t).view.emb (ix2 u d) : S1x768.Idx) = ix2 (0 : Fin 1) d := funext fun a => Fin.ext (by
    match a with
    | ⟨0, _⟩ => show win0_2.index t (0 : Fin 2) * 1 + 1 * u.val = 0; omega
    | ⟨1, _⟩ => show win0_2.index t (1 : Fin 2) * 768 + 1 * d.val = d.val; omega)
  rw [hi]
  exact shapeCast_a_1a_apply _ _ _ _

/-- Window 4: the vector argument 4 stood up as one row. -/
theorem blk4 (c : Dev nD) (t : Fin cfg0.N) (u : Fin 1) (d : Fin 768) :
    (iblk m c 4 t : Vec Ideal S1x768 .f32) (ix2 u d) = (m ((c : Thread nD τ).loc main_arg4)) (ix1 d) := by
  obtain ⟨-, -, -, -, -, -, -, -, -, e0, e1, -⟩ := idx_facts t
  have hu : u.val = 0 := by omega
  unfold iblk
  rw [View.read_apply]
  show V m c main_v2 _ = _
  rw [V_v2]
  have hi : (((cfg0.win 4).blk t).view.emb (ix2 u d) : S1x768.Idx) = ix2 (0 : Fin 1) d := funext fun a => Fin.ext (by
    match a with
    | ⟨0, _⟩ => show win0_4.index t (0 : Fin 2) * 1 + 1 * u.val = 0; omega
    | ⟨1, _⟩ => show win0_4.index t (1 : Fin 2) * 768 + 1 * d.val = d.val; omega)
  rw [hi]
  exact shapeCast_a_1a_apply _ _ _ _

/-- Window 6: the vector argument 6 stood up as one row. -/
theorem blk6 (c : Dev nD) (t : Fin cfg0.N) (u : Fin 1) (d : Fin 768) :
    (iblk m c 6 t : Vec Ideal S1x768 .f32) (ix2 u d) = (m ((c : Thread nD τ).loc main_arg6)) (ix1 d) := by
  obtain ⟨-, -, -, -, -, -, -, -, -, -, -, -, -, e0, e1, -⟩ := idx_facts t
  have hu : u.val = 0 := by omega
  unfold iblk
  rw [View.read_apply]
  show V m c main_v3 _ = _
  rw [V_v3]
  have hi : (((cfg0.win 6).blk t).view.emb (ix2 u d) : S1x768.Idx) = ix2 (0 : Fin 1) d := funext fun a => Fin.ext (by
    match a with
    | ⟨0, _⟩ => show win0_6.index t (0 : Fin 2) * 1 + 1 * u.val = 0; omega
    | ⟨1, _⟩ => show win0_6.index t (1 : Fin 2) * 768 + 1 * d.val = d.val; omega)
  rw [hi]
  exact shapeCast_a_1a_apply _ _ _ _

/-- Window 3: the weight matrix argument 3, its change of float format the identity. -/
theorem blk3 (c : Dev nD) (t : Fin cfg0.N) (d e : Fin 768) :
    (iblk m c 3 t : Vec Ideal S768x768 .bf16) (ix2 d e) = (m ((c : Thread nD τ).loc main_arg3)) (ix2 d e) := by
  obtain ⟨-, -, -, -, -, -, -, e0, e1, -⟩ := idx_facts t
  unfold iblk
  rw [View.read_apply]
  show V m c main_v4 _ = _
  rw [V_v4]
  show (m ((c : Thread nD τ).loc main_arg3)) _ = _
  refine congrArg (m ((c : Thread nD τ).loc main_arg3)) (funext fun a => Fin.ext ?_)
  match a with
  | ⟨0, _⟩ => show win0_3.index t (0 : Fin 2) * 768 + 1 * d.val = d.val; omega
  | ⟨1, _⟩ => show win0_3.index t (1 : Fin 2) * 768 + 1 * e.val = e.val; omega

/-- Window 5: the weight matrix argument 5, its change of float format the identity. -/
theorem blk5 (c : Dev nD) (t : Fin cfg0.N) (d e : Fin 768) :
    (iblk m c 5 t : Vec Ideal S768x768 .bf16) (ix2 d e) = (m ((c : Thread nD τ).loc main_arg5)) (ix2 d e) := by
  obtain ⟨-, -, -, -, -, -, -, -, -, -, -, e0, e1, -⟩ := idx_facts t
  unfold iblk
  rw [View.read_apply]
  show V m c main_v5 _ = _
  rw [V_v5]
  show (m ((c : Thread nD τ).loc main_arg5)) _ = _
  refine congrArg (m ((c : Thread nD τ).loc main_arg5)) (funext fun a => Fin.ext ?_)
  match a with
  | ⟨0, _⟩ => show win0_5.index t (0 : Fin 2) * 768 + 1 * d.val = d.val; omega
  | ⟨1, _⟩ => show win0_5.index t (1 : Fin 2) * 768 + 1 * e.val = e.val; omega

/-! ## The kept keys -/

/-- After a first tile the scratch holds the key projection of the point's batch. -/
theorem kept_keys (c : Dev nD) (t' : Fin cfg0.N) (hp : t'.val % 2 = 0) (b : Fin 8) (hb : b.val = t'.val / 2)
    (s : Fin 2048) (e : Fin 768) :
    ((outsAt0 m c t'.val t'.isLt).2 : Vec Ideal S2048x768 .bf16) (ix2 s e)
      = proj (m ((c : Thread nD τ).loc main_arg0)) (m ((c : Thread nD τ).loc main_arg1)) (m ((c : Thread nD τ).loc main_arg2)) (m ((c : Thread nD τ).loc main_arg5)) (m ((c : Thread nD τ).loc main_arg6)) b s e := by
  rw [outsAt0_A m c t' hp]
  dsimp only
  refine (congrFun (sout_A c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') (ms0_7 t') (hs0_7 t') scM0_0 (Memref.isWhole_whole _) ((hcond0_0 t').mpr hp) (iblk m c 0 t') (iblk m c 1 t') (iblk m c 2 t') (iblk m c 3 t') (iblk m c 4 t') (iblk m c 5 t') (iblk m c 6 t')) (ix2 s e)).trans ?_
  exact keys_entry (iblk m c 0 t') (iblk m c 1 t') (iblk m c 2 t') _ _ _ b
    (fun s d => blk0 m c t' b hb 0 s d) (fun d => blk1 m c t' 0 d) (fun d => blk2 m c t' 0 d)
    (iblk m c 5 t') (iblk m c 6 t') _ _ (fun d e => blk5 m c t' d e) (fun e => blk6 m c t' 0 e) s e

/-! ## What a point writes back -/

/-- The block of softmax rows computed at point `t` from its input blocks and kept keys `ks` that hold the batch's key
    projection is block `t` of the specification. -/
theorem rows_block (c : Dev nD) (t : Fin cfg0.N) (b : Fin 8) (hb : b.val = t.val / 2) (ks : Vec Ideal S2048x768 .bf16)
    (hk : ∀ (s : Fin 2048) (e : Fin 768), ks (ix2 s e) = proj (m ((c : Thread nD τ).loc main_arg0)) (m ((c : Thread nD τ).loc main_arg1)) (m ((c : Thread nD τ).loc main_arg2)) (m ((c : Thread nD τ).loc main_arg5)) (m ((c : Thread nD τ).loc main_arg6)) b s e)
    (j : S1x1024x2048.Idx) :
    rowsOf (grid0.coords t) (iblk m c 0 t) (iblk m c 1 t) (iblk m c 2 t) (iblk m c 3 t) (iblk m c 4 t) ks j
      = ((cfg0.win 7).blk t).view.read (Elt Ideal) (result m c) j := by
  obtain ⟨-, -, -, -, -, -, -, -, -, -, -, -, -, -, -, f0, f1, f2, g1⟩ := idx_facts t
  have hN : t.val < 16 := lt_of_lt_of_eq t.isLt (show cfg0.N = 16 from N_0)
  have hj := eq_ix3 (n0 := 1) (n1 := 1024) (n2 := 2048) j
  have hj0 : (j 0).val < 1 := (j 0).isLt
  have hj1 : (j 1).val < 1024 := (j 1).isLt
  rw [hj]
  refine (rows_entry (iblk m c 0 t) (iblk m c 1 t) (iblk m c 2 t) (m ((c : Thread nD τ).loc main_arg0)) (m ((c : Thread nD τ).loc main_arg1)) (m ((c : Thread nD τ).loc main_arg2)) b
    (fun s d => blk0 m c t b hb 0 s d) (fun d => blk1 m c t 0 d) (fun d => blk2 m c t 0 d)
    (grid0.coords t) (iblk m c 3 t) (iblk m c 4 t) ks (m ((c : Thread nD τ).loc main_arg3)) (m ((c : Thread nD τ).loc main_arg4)) (m ((c : Thread nD τ).loc main_arg5)) (m ((c : Thread nD τ).loc main_arg6))
    (fun d e => blk3 m c t d e) (fun e => blk4 m c t 0 e) hk
    (j 0) (j 1) (j 2) ⟨1024 * (t.val % 2) + (j 1).val, by omega⟩
    (by show _ = 1024 * ((grid0.coords t) 1).val + _; rw [g1])).trans ?_
  have he : (((cfg0.win 7).blk t).view.emb (ix3 (j 0) (j 1) (j 2)) : S8x2048x2048.Idx)
      = ix3 b (⟨1024 * (t.val % 2) + (j 1).val, by omega⟩ : Fin 2048) (j 2) := funext fun a => Fin.ext (by
    match a with
    | ⟨0, _⟩ => show win0_7.index t (0 : Fin 3) * 1 + 1 * (j 0).val = b.val; omega
    | ⟨1, _⟩ => show win0_7.index t (1 : Fin 3) * 1024 + 1 * (j 1).val = 1024 * (t.val % 2) + (j 1).val; omega
    | ⟨2, _⟩ => show win0_7.index t (2 : Fin 3) * 2048 + 1 * (j 2).val = (j 2).val; omega)
  refine Eq.trans ?_ (congrArg (result m c) he).symm
  rfl

/-- WHAT POINT `t` WRITES BACK is block `t` of the specification of the argument arrays: at a first tile the keys are
    the ones just computed, at a second tile the ones the point before kept, for the same batch. -/
theorem flushed_eq (c : Dev nD) (t : Fin cfg0.N) :
    (dats m 0 c).flushed 7 t = ((cfg0.win 7).blk t).view.read (Elt Ideal) (result m c) := by
  have hN : t.val < 16 := lt_of_lt_of_eq t.isLt (show cfg0.N = 16 from N_0)
  have hb : (⟨t.val / 2, by omega⟩ : Fin 8).val = t.val / 2 := rfl
  by_cases h0 : t.val % 2 = 0
  · rw [flushed7_A m c t h0]
    funext j
    refine (congrFun (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)) j).trans ?_
    exact rows_block m c t ⟨t.val / 2, by omega⟩ hb _
      (fun s e => keys_entry (iblk m c 0 t) (iblk m c 1 t) (iblk m c 2 t) _ _ _ ⟨t.val / 2, by omega⟩
        (fun s d => blk0 m c t _ hb 0 s d) (fun d => blk1 m c t 0 d) (fun d => blk2 m c t 0 d)
        (iblk m c 5 t) (iblk m c 6 t) _ _ (fun d e => blk5 m c t d e) (fun e => blk6 m c t 0 e) s e) j
  · rw [flushed7_B m c t h0]
    funext j
    refine (congrFun (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2) j).trans ?_
    exact rows_block m c t ⟨t.val / 2, by omega⟩ hb _
      (fun s e => kept_keys m c ⟨t.val - 1, Nat.lt_of_le_of_lt (Nat.sub_le _ _) t.isLt⟩ (by show (t.val - 1) % 2 = 0; omega)
        ⟨t.val / 2, by omega⟩ (by show t.val / 2 = (t.val - 1) / 2; omega) s e) j

/-! ## The array after the run -/

/-- An index of the result array is in point `t`'s block iff each coordinate is in the block's range on its axis. -/
theorem mem_blk (t : Fin cfg0.N) (i : S8x2048x2048.Idx) :
    i ∈ ((cfg0.win 7).blk t).view.set ↔ ∀ a : Fin 3, win0_7.index t a * S1x1024x2048.size a ≤ (i a).val
      ∧ (i a).val < win0_7.index t a * S1x1024x2048.size a + S1x1024x2048.size a := by
  show i ∈ ((View.whole main_v6).slice (win0_7.rect t)).set ↔ _
  rw [View.set_slice_whole, Rect.mem_set_unit]
  exact Iff.rfl

/-- The sixteen blocks cover the result array: entry `(b, q, k)` is in the block of batch `b`, tile `⌊q / 1024⌋`. -/
theorem cover (i : S8x2048x2048.Idx) : ∃ t : Fin cfg0.N, (cfg0.win 7).flush t = true ∧ i ∈ ((cfg0.win 7).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩
  have q0 : win0_7.index t (0 : Fin 3) = (i 0).val := congrFun ht 0
  have q1 : win0_7.index t (1 : Fin 3) = (i 1).val / 1024 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 2048 ≤ (i 2).val ∧ (i 2).val < win0_7.index t (2 : Fin 3) * 2048 + 2048; omega

/-- THE ARRAY after the run is the specification of the argument arrays. -/
theorem final (c : Dev nD) : (dats m 0 c).arrAt 7 cfg0.N = result m c :=
  (dats m 0 c).arrAt_eq_of_cover 7 (result m c) (fun t _ => flushed_eq m c t) (cover)

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.ArrayValue

end
-- ==== Proof.RefValue.lean ====
/-
  The reference program's result, stage by stage, is the specification.

  The reference normalises every row of `h`, projects it to a query row and a key row, contracts the query rows
  with the key rows of the same batch over their 768 entries, and takes the softmax of each row of scores: a
  maximum from -∞ (met once more with -∞, which changes nothing), the shifted exponentials, their sum from zero,
  the quotient. Each stage read at an entry is the specification's term for that entry.
-/
import proofs.«160184_j70583492542479_2_alg».proof.Proof.Gen.ReferenceIdeal.Read
import proofs.«160184_j70583492542479_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.LaneNorm Idealize.ShloMosaic.RowSoftmax Cert.Spec

/-! ## The stages' index maps at coordinates -/

theorem i_v1 (b : Fin 8) (s : Fin 2048) (u : Fin 1) : idx_main_v1 (ix3 b s u) = ix2 b s :=
  funext fun a => Fin.ext (by match a with | ⟨0, _⟩ => rfl | ⟨1, _⟩ => rfl)
theorem i_v8 (b : Fin 8) (s : Fin 2048) (u : Fin 1) : idx_main_v8 (ix3 b s u) = ix2 b s :=
  funext fun a => Fin.ext (by match a with | ⟨0, _⟩ => rfl | ⟨1, _⟩ => rfl)
theorem i_v36 (b : Fin 8) (s : Fin 2048) (u : Fin 1) : idx_main_v36 (ix3 b s u) = ix2 b s :=
  funext fun a => Fin.ext (by match a with | ⟨0, _⟩ => rfl | ⟨1, _⟩ => rfl)
theorem i_v41 (b : Fin 8) (s : Fin 2048) (u : Fin 1) : idx_main_v41 (ix3 b s u) = ix2 b s :=
  funext fun a => Fin.ext (by match a with | ⟨0, _⟩ => rfl | ⟨1, _⟩ => rfl)
theorem i_v0 (b : Fin 8) (s : Fin 2048) (k : Fin 768) : idx_main_v0 (ix2 b s) k = ix3 b s k :=
  funext fun a => Fin.ext (by match a with | ⟨0, _⟩ => rfl | ⟨1, _⟩ => rfl | ⟨2, _⟩ => rfl)
theorem i_v7 (b : Fin 8) (s : Fin 2048) (k : Fin 768) : idx_main_v7 (ix2 b s) k = ix3 b s k :=
  funext fun a => Fin.ext (by match a with | ⟨0, _⟩ => rfl | ⟨1, _⟩ => rfl | ⟨2, _⟩ => rfl)
theorem i_v40 (b : Fin 8) (q k : Fin 2048) : idx_main_v40 (ix2 b q) k = ix3 b q k :=
  funext fun a => Fin.ext (by match a with | ⟨0, _⟩ => rfl | ⟨1, _⟩ => rfl | ⟨2, _⟩ => rfl)
theorem i_v4 (b : Fin 8) (s : Fin 2048) (d : Fin 768) : idx_main_v4 (ix3 b s d) = ix3 b s (0 : Fin 1) :=
  funext fun a => Fin.ext (by match a with | ⟨0, _⟩ => rfl | ⟨1, _⟩ => rfl | ⟨2, _⟩ => rfl)
theorem i_v11 (b : Fin 8) (s : Fin 2048) (d : Fin 768) : idx_main_v11 (ix3 b s d) = ix3 b s (0 : Fin 1) :=
  funext fun a => Fin.ext (by match a with | ⟨0, _⟩ => rfl | ⟨1, _⟩ => rfl | ⟨2, _⟩ => rfl)
theorem i_v16 (b : Fin 8) (s : Fin 2048) (d : Fin 768) : idx_main_v16 (ix3 b s d) = ix3 b s (0 : Fin 1) :=
  funext fun a => Fin.ext (by match a with | ⟨0, _⟩ => rfl | ⟨1, _⟩ => rfl | ⟨2, _⟩ => rfl)
theorem i_v37 (b : Fin 8) (q k : Fin 2048) : idx_main_v37 (ix3 b q k) = ix3 b q (0 : Fin 1) :=
  funext fun a => Fin.ext (by match a with | ⟨0, _⟩ => rfl | ⟨1, _⟩ => rfl | ⟨2, _⟩ => rfl)
theorem i_v42 (b : Fin 8) (q k : Fin 2048) : idx_main_v42 (ix3 b q k) = ix3 b q (0 : Fin 1) :=
  funext fun a => Fin.ext (by match a with | ⟨0, _⟩ => rfl | ⟨1, _⟩ => rfl | ⟨2, _⟩ => rfl)
theorem i_v18 (u v : Fin 1) (d : Fin 768) : idx_main_v18 (ix3 u v d) = ix1 d :=
  funext fun a => Fin.ext (by match a with | ⟨0, _⟩ => rfl)
theorem i_v21 (u v : Fin 1) (d : Fin 768) : idx_main_v21 (ix3 u v d) = ix1 d :=
  funext fun a => Fin.ext (by match a with | ⟨0, _⟩ => rfl)
theorem i_v25 (u v : Fin 1) (d : Fin 768) : idx_main_v25 (ix3 u v d) = ix1 d :=
  funext fun a => Fin.ext (by match a with | ⟨0, _⟩ => rfl)
theorem i_v29 (u v : Fin 1) (d : Fin 768) : idx_main_v29 (ix3 u v d) = ix1 d :=
  funext fun a => Fin.ext (by match a with | ⟨0, _⟩ => rfl)
theorem i_v19 (b : Fin 8) (s : Fin 2048) (d : Fin 768) : idx_main_v19 (ix3 b s d) = ix3 (0 : Fin 1) (0 : Fin 1) d :=
  funext fun a => Fin.ext (by match a with | ⟨0, _⟩ => rfl | ⟨1, _⟩ => rfl | ⟨2, _⟩ => rfl)
theorem i_v22 (b : Fin 8) (s : Fin 2048) (d : Fin 768) : idx_main_v22 (ix3 b s d) = ix3 (0 : Fin 1) (0 : Fin 1) d :=
  funext fun a => Fin.ext (by match a with | ⟨0, _⟩ => rfl | ⟨1, _⟩ => rfl | ⟨2, _⟩ => rfl)
theorem i_v26 (b : Fin 8) (s : Fin 2048) (d : Fin 768) : idx_main_v26 (ix3 b s d) = ix3 (0 : Fin 1) (0 : Fin 1) d :=
  funext fun a => Fin.ext (by match a with | ⟨0, _⟩ => rfl | ⟨1, _⟩ => rfl | ⟨2, _⟩ => rfl)
theorem i_v30 (b : Fin 8) (s : Fin 2048) (d : Fin 768) : idx_main_v30 (ix3 b s d) = ix3 (0 : Fin 1) (0 : Fin 1) d :=
  funext fun a => Fin.ext (by match a with | ⟨0, _⟩ => rfl | ⟨1, _⟩ => rfl | ⟨2, _⟩ => rfl)
theorem li_v24 (b : Fin 8) (s : Fin 2048) (e k : Fin 768) : lidx_main_v24 (ix3 b s e) k = ix3 b s k :=
  funext fun a => Fin.ext (by match a with | ⟨0, _⟩ => rfl | ⟨1, _⟩ => rfl | ⟨2, _⟩ => rfl)
theorem ri_v24 (b : Fin 8) (s : Fin 2048) (e k : Fin 768) : ridx_main_v24 (ix3 b s e) k = ix2 k e :=
  funext fun a => Fin.ext (by match a with | ⟨0, _⟩ => rfl | ⟨1, _⟩ => rfl)
theorem li_v28 (b : Fin 8) (s : Fin 2048) (e k : Fin 768) : lidx_main_v28 (ix3 b s e) k = ix3 b s k :=
  funext fun a => Fin.ext (by match a with | ⟨0, _⟩ => rfl | ⟨1, _⟩ => rfl | ⟨2, _⟩ => rfl)
theorem ri_v28 (b : Fin 8) (s : Fin 2048) (e k : Fin 768) : ridx_main_v28 (ix3 b s e) k = ix2 k e :=
  funext fun a => Fin.ext (by match a with | ⟨0, _⟩ => rfl | ⟨1, _⟩ => rfl)
theorem li_v32 (b : Fin 8) (q k : Fin 2048) (e : Fin 768) : lidx_main_v32 (ix3 b q k) e = ix3 b q e :=
  funext fun a => Fin.ext (by match a with | ⟨0, _⟩ => rfl | ⟨1, _⟩ => rfl | ⟨2, _⟩ => rfl)
theorem ri_v32 (b : Fin 8) (q k : Fin 2048) (e : Fin 768) : ridx_main_v32 (ix3 b q k) e = ix3 b k e :=
  funext fun a => Fin.ext (by match a with | ⟨0, _⟩ => rfl | ⟨1, _⟩ => rfl | ⟨2, _⟩ => rfl)

/-! ## The stages -/

variable (x0 : (⟨S8x2048x768, .f32⟩ : BufTy).Contents (Elt Ideal)) (x1 x2 : (⟨S768, .f32⟩ : BufTy).Contents (Elt Ideal))
  (x3 : (⟨S768x768, .f32⟩ : BufTy).Contents (Elt Ideal)) (x4 : (⟨S768, .f32⟩ : BufTy).Contents (Elt Ideal))
  (x5 : (⟨S768x768, .f32⟩ : BufTy).Contents (Elt Ideal)) (x6 : (⟨S768, .f32⟩ : BufTy).Contents (Elt Ideal))

/-- The column of row means. -/
theorem ref_mean (b : Fin 8) (s : Fin 2048) (u : Fin 1) :
    val_main_v3 (F := Ideal) x0 (ix3 b s u) = rowMean width (fun d => x0 (ix3 b s d)) := by
  rw [val_main_v3_apply, val_main_v1_apply, val_main_v0_apply]
  simp only [i_v1, i_v0]
  show Ideal.div (Ideal.ofBits .f32 0x00000000#32 + _) (Ideal.ofBits .f32 0x44400000#32) = _
  rw [Ideal.ofBits_zero_f32, zero_add]
  rfl

/-- An entry less its row's mean. -/
theorem ref_centred (b : Fin 8) (s : Fin 2048) (d : Fin 768) :
    val_main_v5 (F := Ideal) x0 (ix3 b s d) = x0 (ix3 b s d) - rowMean width (fun d => x0 (ix3 b s d)) := by
  rw [val_main_v5_apply, val_main_v4_apply, i_v4, ref_mean]
  rfl

/-- The column of row variances. -/
theorem ref_var (b : Fin 8) (s : Fin 2048) (u : Fin 1) :
    val_main_v10 (F := Ideal) x0 (ix3 b s u) = rowVar width (fun d => x0 (ix3 b s d)) := by
  rw [val_main_v10_apply, val_main_v8_apply, val_main_v7_apply]
  simp only [i_v8, i_v7, val_main_v6_apply, ref_centred]
  show Ideal.div (Ideal.ofBits .f32 0x00000000#32 + _) (Ideal.ofBits .f32 0x44400000#32) = _
  rw [Ideal.ofBits_zero_f32, zero_add]
  rfl

/-- The normalised, scaled and shifted row. -/
theorem ref_hn (b : Fin 8) (s : Fin 2048) (d : Fin 768) :
    val_main_v23 (F := Ideal) x0 x1 x2 (ix3 b s d) = hn x0 x1 x2 b s d := by
  rw [val_main_v23_apply, val_main_v20_apply, val_main_v17_apply, val_main_v12_apply, val_main_v11_apply, i_v11, ref_mean,
    val_main_v16_apply, i_v16, val_main_v15_apply, val_main_v14_apply, ref_var, val_main_v19_apply, i_v19,
    val_main_v18_apply, i_v18, val_main_v22_apply, i_v22, val_main_v21_apply, i_v21]
  rfl

/-- The query projection. -/
theorem ref_q (b : Fin 8) (s : Fin 2048) (e : Fin 768) :
    val_main_v27 (F := Ideal) x0 x1 x2 x3 x4 (ix3 b s e) = proj x0 x1 x2 x3 x4 b s e := by
  rw [val_main_v27_apply, val_main_v24_apply, val_main_v26_apply, i_v26, val_main_v25_apply, i_v25]
  simp only [li_v24, ri_v24, ref_hn]
  rfl

/-- The key projection. -/
theorem ref_k (b : Fin 8) (s : Fin 2048) (e : Fin 768) :
    val_main_v31 (F := Ideal) x0 x1 x2 x5 x6 (ix3 b s e) = proj x0 x1 x2 x5 x6 b s e := by
  rw [val_main_v31_apply, val_main_v28_apply, val_main_v30_apply, i_v30, val_main_v29_apply, i_v29]
  simp only [li_v28, ri_v28, ref_hn]
  rfl

/-- The scores. -/
theorem ref_score (b : Fin 8) (q k : Fin 2048) :
    val_main_v32 (F := Ideal) x0 x1 x2 x3 x4 x5 x6 (ix3 b q k) = score x0 x1 x2 x3 x4 x5 x6 b q k := by
  rw [val_main_v32_apply]
  simp only [li_v32, ri_v32, ref_q, ref_k]
  rfl

/-- A result index of the maximum with coordinate `k` put back on the reduced last axis. -/
theorem lift_last (h : S8x2048x2048.Reduces [2] S8x2048) (b : Fin 8) (q : Fin 2048) (k : Fin (S8x2048x2048.size 2)) :
    h.lift (ix2 b q) k = ix3 b q (⟨k.val, k.isLt⟩ : Fin 2048) := by
  funext c; apply Fin.ext
  fin_cases c <;> rfl

/-- The row's largest score: a maximum from -∞, met with -∞ once more. -/
theorem ref_max (b : Fin 8) (q : Fin 2048) :
    val_main_v35 (F := Ideal) x0 x1 x2 x3 x4 x5 x6 (ix2 b q) = rowMax (fun k : Fin 2048 => score x0 x1 x2 x3 x4 x5 x6 b q k) := by
  rw [val_main_v35_apply]
  unfold val_main_v33
  rw [Host.reduce_eq_fold_single FloatOps.maximumf _ _ reducesTo_S8x2048x2048_S8x2048_d2 (by decide) h_S_]
  show max (Ideal.ofBits .f32 0xFF800000#32) (Finset.fold max (Ideal.ofBits .f32 0xFF800000#32) _ _) = _
  rw [ofBits_negInf_f32, max_eq_right bot_le]
  unfold rowMax
  exact congrArg (fun f => Finset.fold max ⊥ f (Finset.univ : Finset (Fin 2048)))
    (funext fun k => (congrArg (val_main_v32 (F := Ideal) x0 x1 x2 x3 x4 x5 x6) (lift_last _ b q k)).trans (ref_score x0 x1 x2 x3 x4 x5 x6 b q _))

/-- The shifted exponentials. -/
theorem ref_exp (b : Fin 8) (q k : Fin 2048) :
    val_main_v39 (F := Ideal) x0 x1 x2 x3 x4 x5 x6 (ix3 b q k)
      = Ideal.exp (score x0 x1 x2 x3 x4 x5 x6 b q k - rowMax (fun k' : Fin 2048 => score x0 x1 x2 x3 x4 x5 x6 b q k')) := by
  rw [val_main_v39_apply, val_main_v38_apply, val_main_v37_apply, i_v37, val_main_v36_apply, i_v36, ref_max, ref_score]
  rfl

/-- The result at an entry. -/
theorem ref_entry (b : Fin 8) (q k : Fin 2048) :
    val_main_v43 (F := Ideal) x0 x1 x2 x3 x4 x5 x6 (ix3 b q k) = entry x0 x1 x2 x3 x4 x5 x6 b q k := by
  rw [val_main_v43_apply, val_main_v42_apply, i_v42, val_main_v41_apply, i_v41, val_main_v40_apply]
  simp only [i_v40, ref_exp]
  show Ideal.div _ (Ideal.ofBits .f32 0x00000000#32 + _) = _
  rw [Ideal.ofBits_zero_f32, zero_add]
  rfl

/-- The reference's result array is the specification's. -/
theorem result_eq : val_main_v43 (F := Ideal) x0 x1 x2 x3 x4 x5 x6 = G x0 x1 x2 x3 x4 x5 x6 := by
  funext i
  rw [eq_ix3 i]
  exact ref_entry x0 x1 x2 x3 x4 x5 x6 _ _ _

end Cert.ReferenceIdeal.RefValue

end
-- ==== Proof.lean ====
/-
  Layer normalisation, query and key projections, scores and a row softmax, fused in one kernel, against the same
  computation written with whole-array operations.

  Both programs compute, for every batch `b`, query row `q` and key row `k`,
      softmax over k of  Σ e, Q b q e · K b k e,
  where `Q` and `K` are the two projections `Σ d, hn b s d · W (d, e) + bias e` of the normalised rows
  `hn b s d = (h b s d − μ) · rsqrt (σ² + ε) · γ d + β d`, with `μ` and `σ²` the mean and variance of row `(b, s)` of
  `h` over its 768 entries. The kernel works on one batch and one tile of 1024 query rows at a time; at a batch's
  first tile it also computes the batch's 2048 key rows and keeps them for the second tile. Over the extended reals
  a change of float format is the identity, the matrix unit's products into a zero accumulator and the host's
  contractions are the same plain sums, the lane reductions and the host's reductions are the same sums and maxima,
  and taking the maximum with -∞ once more changes nothing; so the two programs are one function of the
  arguments, with no appeal to finiteness: the only laws used are that finite sums may be taken in any order and
  that -∞ is the least extended real.

  The modules: `Spec` states the function; `LibLaneNorm`, `LibRowSoftmax`, `LibDenseBlock`, `LibDenseLayer`,
  `LibDenseRows` and `LibColumn` read the kernel's vector operations at an entry; `Payloads` reads the body's three
  values at an entry; `Pieces` says what the body leaves at a grid point; `BlockValue` and `ArrayValue` go from the
  blocks to the whole result array; `RefValue` reads the reference's stages.
-/
import proofs.«160184_j70583492542479_2_alg».proof.Defs
import proofs.«160184_j70583492542479_2_alg».proof.Proof.Gen.Kernel
import proofs.«160184_j70583492542479_2_alg».proof.Proof.Gen.Kernel.Skeleton
import proofs.«160184_j70583492542479_2_alg».proof.Proof.Gen.Kernel.Launch
import proofs.«160184_j70583492542479_2_alg».proof.Proof.Gen.Kernel.Points
import proofs.«160184_j70583492542479_2_alg».proof.Proof.Gen.Kernel.Frame
import proofs.«160184_j70583492542479_2_alg».proof.Proof.Gen.KernelIdeal
import proofs.«160184_j70583492542479_2_alg».proof.Proof.Gen.KernelIdeal.Skeleton
import proofs.«160184_j70583492542479_2_alg».proof.Proof.Gen.KernelIdeal.Launch
import proofs.«160184_j70583492542479_2_alg».proof.Proof.Gen.KernelIdeal.Points
import proofs.«160184_j70583492542479_2_alg».proof.Proof.Gen.KernelIdeal.Frame
import proofs.«160184_j70583492542479_2_alg».proof.Proof.Gen.ReferenceIdeal
import proofs.«160184_j70583492542479_2_alg».proof.Proof.Gen.KernelIdeal.Value
import proofs.«160184_j70583492542479_2_alg».proof.Proof.Gen.ReferenceIdeal.Run
import proofs.«160184_j70583492542479_2_alg».proof.Proof.Gen.ReferenceIdeal.Read
import proofs.«160184_j70583492542479_2_alg».proof.Proof.Gen.Pre_finite_inputs
import proofs.«160184_j70583492542479_2_alg».proof.Proof.ArrayValue
import proofs.«160184_j70583492542479_2_alg».proof.Proof.RefValue
import Idealize.ShloMosaic.Adequacy
import Idealize.ShloMosaic.Init

noncomputable section

namespace Cert.Proof

open Idealize.ShloMosaic Idealize.SL.Sem

/-- The kernel as printed runs, faults nowhere, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of whole-array operations: it runs, and no operation writes an argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on the arguments both programs end with the result array at the specification of the
    arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v43_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
